-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S128 .f32) (main_arg6 : FVec F S128x10 .f32) (main_arg7 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg6
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x10 .f32) (main_arg7 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S50000x10 : Shape := ⟨2, ![50000, 10]⟩
abbrev S5000x10 : Shape := ⟨2, ![5000, 10]⟩
abbrev S800000x10 : Shape := ⟨2, ![800000, 10]⟩
abbrev S1x10 : Shape := ⟨2, ![1, 10]⟩
abbrev S5000 : Shape := ⟨1, ![5000]⟩

abbrev nBuf : Space → Nat
  | .hbm => 99
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S800000x1, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S800000x128, .f32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x10, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x10, .f32⟩
  | .hbm, ⟨90, _⟩ => ⟨S800000x10, .f32⟩
  | .hbm, ⟨91, _⟩ => ⟨S800000x10, .f32⟩
  | .hbm, ⟨92, _⟩ => ⟨S_, .f32⟩
  | .hbm, ⟨93, _⟩ => ⟨S50000x10, .f32⟩
  | .hbm, ⟨94, _⟩ => ⟨S800000x1, .i32⟩
  | .hbm, ⟨95, _⟩ => ⟨S50000x10, .f32⟩
  | .hbm, ⟨96, _⟩ => ⟨S1x10, .f32⟩
  | .hbm, ⟨97, _⟩ => ⟨S50000x10, .f32⟩
  | .hbm, ⟨98, _⟩ => ⟨S50000x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x10, .f32⟩
  | .local _ .vmem, ⟨31, _⟩ => ⟨S5000x10, .f32⟩
  | .local _ .vmem, ⟨32, _⟩ => ⟨S5000x10, .f32⟩
  | .local _ .vmem, ⟨33, _⟩ => ⟨S5000x10, .f32⟩
  | .local _ .vmem, ⟨34, _⟩ => ⟨S5000x10, .f32⟩
  | .local _ .vmem, ⟨35, _⟩ => ⟨S5000x10, .f32⟩
  | .local _ .vmem, ⟨36, _⟩ => ⟨S5000x10, .f32⟩
  | .local _ .vmem, ⟨37, _⟩ => ⟨S5000x1, .f32⟩
  | .local _ .vmem, ⟨38, _⟩ => ⟨S5000x1, .f32⟩
  | .local _ .vmem, ⟨39, _⟩ => ⟨S1x10, .f32⟩
  | .local _ .vmem, ⟨40, _⟩ => ⟨S5000x10, .f32⟩
  | .local _ .vmem, ⟨41, _⟩ => ⟨S5000x10, .f32⟩
  | .local _ .vmem, ⟨42, _⟩ => ⟨S5000x10, .f32⟩
  | .local _ .vmem, ⟨43, _⟩ => ⟨S5000x10, .f32⟩
  | .local _ .vmem, ⟨44, _⟩ => ⟨S5000x10, .f32⟩
  | .local _ .vmem, ⟨45, _⟩ => ⟨S5000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x10 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x10 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x10 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x10 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x10 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x10 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  inb_S5000x10_S5000x10_0_0 : ∀ a, (![0, 0] : Fin 2 → Nat) a + S5000x10.size a ≤ S5000x10.size a
  h_S5000x10 : 0 < S5000x10.numel
  bcast_S800000x1_S800000x10_0_1 : S800000x1.BroadcastsInDim S800000x10 (![0, 1] : Fin 2 → Fin S800000x10.rank)
  bcast_S_S50000x10 : S_.BroadcastsInDim S50000x10 (![] : Fin 0 → Fin S50000x10.rank)
  shapeCasts_S10_S1x10 : S10.ShapeCasts S1x10
  shapeCasts_S5000x10_S5000x10 : S5000x10.ShapeCasts S5000x10
  broadcasts_S5000x1_S5000x10 : S5000x1.Broadcasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x10_S5000x10_1_0_0_1_n_n_wf : DotDims.WF S5000x128 S128x10 S5000x10 [1] [0] [0] [1] [] []
  gather_S50000x10_S800000x1_S800000x10_1_0_n_n_0_1_110_wf : GatherDims.WF S50000x10 S800000x1 S800000x10 [1] [0] [] [0] [] 1 ![1, 10]
  scatter_S50000x10_S800000x1_S800000x10_1_0_0_1_wf : ScatterDims.WF S50000x10 S800000x1 S800000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x10.size a ≤ S50000x10.size a
  hwx4_2 : ∀ i : grid4.Coords, EltTy.bits .f32 = 32 ∨ (Rect.block (s := S50000x10) S5000x10.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x10.size a ≤ S50000x10.size a
  hwx5_0 : ∀ i : grid5.Coords, EltTy.bits .f32 = 32 ∨ (Rect.block (s := S50000x10) S5000x10.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x10.size a ≤ S50000x10.size a
  hwx5_1 : ∀ i : grid5.Coords, EltTy.bits .f32 = 32 ∨ (Rect.block (s := S50000x10) S5000x10.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x10.size a ≤ S1x10.size a
  hwx5_3 : ∀ i : grid5.Coords, EltTy.bits .f32 = 32 ∨ (Rect.block (s := S1x10) S1x10.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x10.size a ≤ S50000x10.size a
  hwx5_4 : ∀ i : grid5.Coords, EltTy.bits .f32 = 32 ∨ (Rect.block (s := S50000x10) S5000x10.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x10.size a ≤ S50000x10.size a
  hwx6_0 : ∀ i : grid6.Coords, EltTy.bits .f32 = 32 ∨ (Rect.block (s := S50000x10) S5000x10.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x10.size a ≤ S50000x10.size a
  hwx6_1 : ∀ i : grid6.Coords, EltTy.bits .f32 = 32 ∨ (Rect.block (s := S50000x10) S5000x10.size (cc6_transform_1 i) (hinb6_1 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S50000x10_S800000x1_S800000x10_1_0_n_n_0_1_110 : GatherDims S50000x10 S800000x1 S800000x10 where
  offsetDims := [1]
  collapsedSliceDims := [0]
  operandBatchingDims := []
  startIndicesBatchingDims := []
  startIndexMap := [0]
  indexVectorDim := 1
  sliceSizes := ![1, 10]
  wf := gather_S50000x10_S800000x1_S800000x10_1_0_n_n_0_1_110_wf
def scatter_S50000x10_S800000x1_S800000x10_1_0_0_1 : ScatterDims S50000x10 S800000x1 S800000x10 where
  updateWindowDims := [1]
  insertedWindowDims := [0]
  scatterDimsToOperandDims := [0]
  indexVectorDim := 1
  wf := scatter_S50000x10_S800000x1_S800000x10_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x10.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S5000x10.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S5000x10.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S5000x10.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v73) S5000x10.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v74) S5000x10.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x10 : Shape := ⟨2, ![50000, 10]⟩
abbrev S800000x10 : Shape := ⟨2, ![800000, 10]⟩
abbrev S1x10 : Shape := ⟨2, ![1, 10]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x10, .f32⟩
  | 7 => ⟨S10, .f32⟩
  | 8 => ⟨S50000x128, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x1, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S1x800000, .i32⟩
  | 71 => ⟨S800000, .i32⟩
  | 72 => ⟨S1x800000, .i32⟩
  | 73 => ⟨S800000, .i32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S800000x1, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x10, .f32⟩
  | 3 => ⟨S1x800000, .i32⟩
  | 4 => ⟨S800000, .i32⟩
  | 5 => ⟨S1x800000, .i32⟩
  | 6 => ⟨S800000, .i32⟩
  | 7 => ⟨S_, .f32⟩
  | 8 => ⟨S800000, .f32⟩
  | 9 => ⟨S_, .f32⟩
  | 10 => ⟨S50000, .f32⟩
  | 11 => ⟨S800000x1, .i32⟩
  | 12 => ⟨S50000, .f32⟩
  | 13 => ⟨S_, .f32⟩
  | 14 => ⟨S50000, .f32⟩
  | 15 => ⟨S50000, .f32⟩
  | 16 => ⟨S50000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x10, .f32⟩
  | 45 => ⟨S800000x1, .f32⟩
  | 46 => ⟨S800000x10, .f32⟩
  | 47 => ⟨S800000x10, .f32⟩
  | 48 => ⟨S_, .f32⟩
  | 49 => ⟨S50000x10, .f32⟩
  | 50 => ⟨S800000x1, .i32⟩
  | 51 => ⟨S50000x10, .f32⟩
  | 52 => ⟨S50000, .f32⟩
  | 53 => ⟨S50000x1, .f32⟩
  | 54 => ⟨S50000x10, .f32⟩
  | 55 => ⟨S50000x10, .f32⟩
  | 56 => ⟨S50000x10, .f32⟩
  | 57 => ⟨S1x10, .f32⟩
  | 58 => ⟨S50000x10, .f32⟩
  | 59 => ⟨S50000x10, .f32⟩
  | 60 => ⟨S_, .f32⟩
  | 61 => ⟨S50000x10, .f32⟩
  | 62 => ⟨S50000x10, .f32⟩
  | 63 => ⟨S_, .f32⟩
  | 64 => ⟨S50000, .f32⟩
  | 65 => ⟨S_, .f32⟩
  | 66 => ⟨S50000, .f32⟩
  | 67 => ⟨S50000, .f32⟩
  | 68 => ⟨S50000x1, .f32⟩
  | 69 => ⟨S50000x10, .f32⟩
  | 70 => ⟨S50000x10, .f32⟩
  | 71 => ⟨S50000x10, .f32⟩
  | 72 => ⟨S_, .f32⟩
  | 73 => ⟨S50000, .f32⟩
  | 74 => ⟨S50000x1, .f32⟩
  | 75 => ⟨S50000x1, .f32⟩
  | 76 => ⟨S50000x10, .f32⟩
  | 77 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_call1_cst : Ref sig .tc := ⟨.hbm, 127, rfl⟩
abbrev main_call1_v0 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_18 : Ref sig .tc := ⟨.hbm, 135, rfl⟩
abbrev main_v103 : Ref sig .tc := ⟨.hbm, 136, rfl⟩
abbrev main_cst_19 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_20 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_c_21 : Ref sig .tc := ⟨.hbm, 145, rfl⟩
abbrev main_v110 : Ref sig .tc := ⟨.hbm, 146, rfl⟩
abbrev main_v111 : Ref sig .tc := ⟨.hbm, 147, rfl⟩
abbrev main_c_22 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_c_23 : Ref sig .tc := ⟨.hbm, 154, rfl⟩
abbrev main_v117 : Ref sig .tc := ⟨.hbm, 155, rfl⟩
abbrev main_v118 : Ref sig .tc := ⟨.hbm, 156, rfl⟩
abbrev main_c_24 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_c_25 : Ref sig .tc := ⟨.hbm, 164, rfl⟩
abbrev main_v125 : Ref sig .tc := ⟨.hbm, 165, rfl⟩
abbrev main_v126 : Ref sig .tc := ⟨.hbm, 166, rfl⟩
abbrev main_c_26 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_27 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_call2_cst : Ref sig .tc := ⟨.hbm, 188, rfl⟩
abbrev main_call2_v0 : Ref sig .tc := ⟨.hbm, 189, rfl⟩
abbrev main_v146 : Ref sig .tc := ⟨.hbm, 190, rfl⟩
abbrev main_call3_cst : Ref sig .tc := ⟨.hbm, 191, rfl⟩
abbrev main_call3_v0 : Ref sig .tc := ⟨.hbm, 192, rfl⟩
abbrev main_call3_cst_0 : Ref sig .tc := ⟨.hbm, 193, rfl⟩
abbrev main_call3_v1 : Ref sig .tc := ⟨.hbm, 194, rfl⟩
abbrev main_call3_v2 : Ref sig .tc := ⟨.hbm, 195, rfl⟩
abbrev main_call3_v3 : Ref sig .tc := ⟨.hbm, 196, rfl⟩
abbrev main_call3_v4 : Ref sig .tc := ⟨.hbm, 197, rfl⟩
abbrev main_call3_v5 : Ref sig .tc := ⟨.hbm, 198, rfl⟩
abbrev main_call3_v6 : Ref sig .tc := ⟨.hbm, 199, rfl⟩
abbrev main_call3_cst_1 : Ref sig .tc := ⟨.hbm, 200, rfl⟩
abbrev main_call3_v7 : Ref sig .tc := ⟨.hbm, 201, rfl⟩
abbrev main_call3_v8 : Ref sig .tc := ⟨.hbm, 202, rfl⟩
abbrev main_call3_v9 : Ref sig .tc := ⟨.hbm, 203, rfl⟩
abbrev main_call3_v10 : Ref sig .tc := ⟨.hbm, 204, rfl⟩
abbrev main_v147 : Ref sig .tc := ⟨.hbm, 205, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x10_0_1 : S800000x1.BroadcastsInDim S800000x10 (![0, 1] : Fin 2 → Fin S800000x10.rank)
  bcast_S_S50000x10 : S_.BroadcastsInDim S50000x10 (![] : Fin 0 → Fin S50000x10.rank)
  bcast_S50000x1_S50000x10_0_1 : S50000x1.BroadcastsInDim S50000x10 (![0, 1] : Fin 2 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x10_S50000x10_1_0_0_1_n_n_wf : DotDims.WF S50000x128 S128x10 S50000x10 [1] [0] [0] [1] [] []
  gather_S50000x10_S800000x1_S800000x10_1_0_n_n_0_1_110_wf : GatherDims.WF S50000x10 S800000x1 S800000x10 [1] [0] [] [0] [] 1 ![1, 10]
  scatter_S50000x10_S800000x1_S800000x10_1_0_0_1_wf : ScatterDims.WF S50000x10 S800000x1 S800000x10 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf
def gather_S50000x10_S800000x1_S800000x10_1_0_n_n_0_1_110 : GatherDims S50000x10 S800000x1 S800000x10 where
  offsetDims := [1]
  collapsedSliceDims := [0]
  operandBatchingDims := []
  startIndicesBatchingDims := []
  startIndexMap := [0]
  indexVectorDim := 1
  sliceSizes := ![1, 10]
  wf := gather_S50000x10_S800000x1_S800000x10_1_0_n_n_0_1_110_wf
def scatter_S50000x10_S800000x1_S800000x10_1_0_0_1 : ScatterDims S50000x10 S800000x1 S800000x10 where
  updateWindowDims := [1]
  insertedWindowDims := [0]
  scatterDimsToOperandDims := [0]
  indexVectorDim := 1
  wf := scatter_S50000x10_S800000x1_S800000x10_1_0_0_1_wf

class Facts : Prop extends Facts₀ where

variable [Facts]
-- ==== Proof.KernelRun.lean ====
/-
  The idealized kernel's whole run, with its result named.

  The program is seven pipelined regions among four stretches of host operations. The buffer contents at each
  boundary are a fold from the launch memory: a stretch of host operations applies them, a region replaces its
  output array by what its grid points wrote back and keeps every other buffer. Every weakly fair execution
  terminates with each unscoped buffer at the last fold; read at the result buffer this names the result, and
  read at an argument it walks back to the launch contents.
-/
import proofs.«128258_j65111704207441_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v74) = W11 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v74 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Whole

end
-- ==== Proof.GcnHost.lean ====
/-
  The graph side of the network, as the host computes it from the edge list — one definition per quantity.

  The edge list is a [2, 800000] array of node numbers: row 0 the sources, row 1 the targets. From it:
    * the degree of a node is one plus the number of edges that end at it (ones added into zeros at the targets), and
      `dis` its inverse square root;
    * an edge's weight `norm` is dis at its source times dis at its target (two gathers; a negative node number is
      first moved up by 50000, as array indexing does);
    * the aggregation of an array h of node rows gathers the source rows, scales each by its edge's weight (the weights
      kept as a one-column array repeated along the row) and adds them into zeros at the target rows.
  Every quantity is spelt exactly as the program's host operations compose it, so that reading a stretch of host
  operations back gives these terms by unfolding.
-/
import proofs.«128258_j65111704207441_1_alg».proof.Proof.Gen.KernelIdeal
import Idealize.ShloMosaic.PureOps.Ideal

noncomputable section

namespace Cert.Gcn.Host

open Cert.KernelIdeal Cert.KernelIdeal.Facts₀ Idealize.ShloMosaic

abbrev Edges := IVec S2x800000 32
abbrev EdgeRow := IVec S800000 32
abbrev EdgeCol := IVec S800000x1 32

/-- The edges' sources. -/
def srcRow (e : Edges) : EdgeRow :=
  shapeCast _ (extractStridedSlice S1x800000 ![0, 0] e slices_S2x800000_S1x800000_0_0) shapeCasts_S1x800000_S800000

/-- The edges' targets. -/
def dstRow (e : Edges) : EdgeRow :=
  shapeCast _ (extractStridedSlice S1x800000 ![1, 0] e slices_S2x800000_S1x800000_1_0) shapeCasts_S1x800000_S800000

/-- Node numbers kept as a one-column array of start indices. -/
def asCol (v : EdgeRow) : EdgeCol := broadcastInDim S800000x1 ![0] bcast_S800000_S800000x1_0 v

/-- Node numbers with the negative ones moved up by 50000, as a one-column array of start indices. -/
def wrapCol (v : EdgeRow) : EdgeCol :=
  asCol (select (cmpi .slt v (broadcastInDim S800000 ![] bcast_S_S800000 (constantI S_ 32 0#32)))
    (addi v (broadcastInDim S800000 ![] bcast_S_S800000 (constantI S_ 32 50000#32))) v)

/-- The inverse square root of each node's degree (one plus the number of edges ending at it). -/
def dis (e : Edges) : FVec Ideal S50000 .f32 :=
  Host.rsqrt (addf (Host.scatterAdd scatter_S50000_S800000x1_S800000_n_0_0_1
      (broadcastInDim S50000 ![] bcast_S_S50000 (constant (F := Ideal) S_ .f32 0x00000000#32)) (asCol (dstRow e))
      (broadcastInDim S800000 ![] bcast_S_S800000 (constant (F := Ideal) S_ .f32 0x3F800000#32)))
    (broadcastInDim S50000 ![] bcast_S_S50000 (constant (F := Ideal) S_ .f32 0x3F800000#32)))

/-- Each edge's weight: dis at its source times dis at its target. -/
def norm (e : Edges) : FVec Ideal S800000 .f32 :=
  mulf (Host.gather gather_S50000_S800000x1_S800000_n_0_n_n_0_1_1 (dis e) (wrapCol (srcRow e)))
    (Host.gather gather_S50000_S800000x1_S800000_n_0_n_n_0_1_1 (dis e) (wrapCol (dstRow e)))

/-- The neighbours' rows of a [50000, 128] array, weighted by a one-column array of edge weights and summed at the targets. -/
def agg128 (e : Edges) (w : FVec Ideal S800000x1 .f32) (h : FVec Ideal S50000x128 .f32) :
    FVec Ideal S50000x128 .f32 :=
  Host.scatterAdd scatter_S50000x128_S800000x1_S800000x128_1_0_0_1
    (broadcastInDim S50000x128 ![] bcast_S_S50000x128 (constant (F := Ideal) S_ .f32 0x00000000#32)) (asCol (dstRow e))
    (mulf (Host.gather gather_S50000x128_S800000x1_S800000x128_1_0_n_n_0_1_1128 h (wrapCol (srcRow e)))
      (broadcastInDim S800000x128 ![0, 1] bcast_S800000x1_S800000x128_0_1 w))

/-- The same of a [50000, 10] array. -/
def agg10 (e : Edges) (w : FVec Ideal S800000x1 .f32) (h : FVec Ideal S50000x10 .f32) :
    FVec Ideal S50000x10 .f32 :=
  Host.scatterAdd scatter_S50000x10_S800000x1_S800000x10_1_0_0_1
    (broadcastInDim S50000x10 ![] bcast_S_S50000x10 (constant (F := Ideal) S_ .f32 0x00000000#32)) (asCol (dstRow e))
    (mulf (Host.gather gather_S50000x10_S800000x1_S800000x10_1_0_n_n_0_1_110 h (wrapCol (srcRow e)))
      (broadcastInDim S800000x10 ![0, 1] bcast_S800000x1_S800000x10_0_1 w))

end Cert.Gcn.Host

end
-- ==== Proof.LibGcnRows.lean ====
/-
  The graph-convolution network on the extended reals, entry by entry — general in the number of nodes N and of
  features K.

  One layer takes the node features x, forms h = x · w, aggregates the neighbours' rows of h (a gather of the
  source rows, each scaled by its edge's weight, added into the target rows) and then combines, at node r and
  feature k,
      max ((agg (r, k) + h (r, k) · d (r)) + b (k)) 0,
  with d the self-loop weight of node r kept as a one-column array and b the bias kept as a one-row array. The
  network ends in the row-wise log-softmax
      (z (r, q) − M r) − log Σ_k exp (z (r, k) − M r),   M r the maximum of row r taken from the f32 word of −∞.
  Both act on each row by itself, which is why a block of rows of the operands gives the same rows of the result.
  Nothing here needs an entry to be finite: the grouping of every sum is the same on both sides of every equation.
-/
import Idealize.ShloMosaic.PureOps.Ideal.Laws
import Idealize.ShloMosaic.Lib.ValueIdx

noncomputable section

namespace Cert.Gcn

open Idealize.ShloMosaic Idealize.ShloMosaic.ValueIdx

/-- The aggregated rows plus the self-loop term plus the bias, then the maximum with zero (the zero spelt as the f32
    word both programs print, never evaluated). -/
def combine {N K : Nat} (agg h : (⟨2, ![N, K]⟩ : Shape).Idx → EReal) (d : (⟨2, ![N, 1]⟩ : Shape).Idx → EReal)
    (b : (⟨2, ![1, K]⟩ : Shape).Idx → EReal) : (⟨2, ![N, K]⟩ : Shape).Idx → EReal :=
  fun i => max ((agg i + h i * d (ix2 (i 0 : Fin N) (0 : Fin 1))) + b (ix2 (0 : Fin 1) (i 1 : Fin K)))
    (Ideal.ofBits .f32 0x00000000#32)

theorem combine_apply {N K : Nat} (agg h : (⟨2, ![N, K]⟩ : Shape).Idx → EReal) (d : (⟨2, ![N, 1]⟩ : Shape).Idx → EReal)
    (b : (⟨2, ![1, K]⟩ : Shape).Idx → EReal) (p : Fin N) (k : Fin K) :
    combine agg h d b (ix2 p k)
      = max ((agg (ix2 p k) + h (ix2 p k) * d (ix2 p (0 : Fin 1))) + b (ix2 (0 : Fin 1) k)) (Ideal.ofBits .f32 0x00000000#32) := rfl

/-- Each entry by itself: where the four operands of one array agree with those of another at the entries read, the
    two results agree. -/
theorem combine_congr {N N' K : Nat} (agg h : (⟨2, ![N, K]⟩ : Shape).Idx → EReal) (d : (⟨2, ![N, 1]⟩ : Shape).Idx → EReal)
    (b : (⟨2, ![1, K]⟩ : Shape).Idx → EReal) (agg' h' : (⟨2, ![N', K]⟩ : Shape).Idx → EReal) (d' : (⟨2, ![N', 1]⟩ : Shape).Idx → EReal)
    (b' : (⟨2, ![1, K]⟩ : Shape).Idx → EReal) (p : Fin N) (p' : Fin N') (k : Fin K)
    (ha : agg' (ix2 p' k) = agg (ix2 p k)) (hh : h' (ix2 p' k) = h (ix2 p k))
    (hd : d' (ix2 p' (0 : Fin 1)) = d (ix2 p (0 : Fin 1))) (hb : b' (ix2 (0 : Fin 1) k) = b (ix2 (0 : Fin 1) k)) :
    combine agg' h' d' b' (ix2 p' k) = combine agg h d b (ix2 p k) := by
  rw [combine_apply, combine_apply, ha, hh, hd, hb]

/-- The maximum of row p of z, taken from the f32 word of −∞. -/
def rowTop {N K : Nat} (z : (⟨2, ![N, K]⟩ : Shape).Idx → EReal) (p : Fin N) : EReal :=
  (Finset.univ : Finset (Fin K)).fold max (Ideal.ofBits .f32 0xFF800000#32) fun k : Fin K => z (ix2 p k)

/-- The row-wise log-softmax. -/
def logSoftmax {N K : Nat} (z : (⟨2, ![N, K]⟩ : Shape).Idx → EReal) : (⟨2, ![N, K]⟩ : Shape).Idx → EReal :=
  fun i => (z i - rowTop z (i 0 : Fin N)) - Ideal.log (∑ k : Fin K, Ideal.exp (z (ix2 (i 0 : Fin N) k) - rowTop z (i 0 : Fin N)))

theorem logSoftmax_apply {N K : Nat} (z : (⟨2, ![N, K]⟩ : Shape).Idx → EReal) (p : Fin N) (q : Fin K) :
    logSoftmax z (ix2 p q)
      = (z (ix2 p q) - rowTop z p) - Ideal.log (∑ k : Fin K, Ideal.exp (z (ix2 p k) - rowTop z p)) := rfl

/-- Each row by itself: equal rows give equal results at those rows. -/
theorem logSoftmax_congr {N N' K : Nat} (z : (⟨2, ![N, K]⟩ : Shape).Idx → EReal) (z' : (⟨2, ![N', K]⟩ : Shape).Idx → EReal)
    (p : Fin N) (p' : Fin N') (q : Fin K) (hz : ∀ k : Fin K, z' (ix2 p' k) = z (ix2 p k)) :
    logSoftmax z' (ix2 p' q) = logSoftmax z (ix2 p q) := by
  have ht : rowTop z' p' = rowTop z p :=
    congrArg (fun f : Fin K → EReal => (Finset.univ : Finset (Fin K)).fold max (Ideal.ofBits .f32 0xFF800000#32) f) (funext hz)
  rw [logSoftmax_apply, logSoftmax_apply, ht, hz q]
  exact congrArg (fun s => (z (ix2 p q) - rowTop z p) - Ideal.log s) (Finset.sum_congr rfl fun k _ => by rw [hz k])

end Cert.Gcn

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.GcnNet.lean ====
/-
  The whole network as one function of its eight argument arrays.

  Three graph-convolution layers — the node features times the weights, the neighbours' rows aggregated with the edge
  weights, the self-loop term and the bias added, the maximum with zero — and the row-wise log-softmax of the last
  layer's [50000, 10] result. The self-loop weights dis² are kept as a one-column array, the edge weights as a
  one-column array, each bias as a one-row array (reshapes of the vectors).
-/
import proofs.«128258_j65111704207441_1_alg».proof.Proof.GcnHost
import proofs.«128258_j65111704207441_1_alg».proof.Proof.LibGcnRows
import proofs.«128258_j65111704207441_1_alg».proof.Proof.LibRowsTimes

noncomputable section

namespace Cert.Gcn.Net

open Cert.KernelIdeal Cert.KernelIdeal.Facts₀ Cert.Gcn Cert.Gcn.Host Cert.Dense Idealize.ShloMosaic

/-- The self-loop weights dis², one per node, as a one-column array. -/
def selfCol (e : Edges) : FVec Ideal S50000x1 .f32 := shapeCast S50000x1 (mulf (dis e) (dis e)) shapeCasts_S50000_S50000x1

/-- The edge weights as a one-column array. -/
def normCol (e : Edges) : FVec Ideal S800000x1 .f32 := shapeCast S800000x1 (norm e) shapeCasts_S800000_S800000x1

/-- Node features times a [128, 128] weight matrix. -/
def hidden128 (x : FVec Ideal S50000x128 .f32) (w : FVec Ideal S128x128 .f32) : FVec Ideal S50000x128 .f32 :=
  rowsTimes (M := 50000) (K := 128) (N := 128) x w

/-- Node features times a [128, 10] weight matrix. -/
def hidden10 (x : FVec Ideal S50000x128 .f32) (w : FVec Ideal S128x10 .f32) : FVec Ideal S50000x10 .f32 :=
  rowsTimes (M := 50000) (K := 128) (N := 10) x w

/-- A layer with 128 output features. -/
def layer128 (e : Edges) (x : FVec Ideal S50000x128 .f32) (w : FVec Ideal S128x128 .f32) (b : FVec Ideal S128 .f32) :
    FVec Ideal S50000x128 .f32 :=
  combine (N := 50000) (K := 128) (agg128 e (normCol e) (hidden128 x w)) (hidden128 x w) (selfCol e)
    (shapeCast S1x128 b shapeCasts_S128_S1x128)

/-- A layer with 10 output features. -/
def layer10 (e : Edges) (x : FVec Ideal S50000x128 .f32) (w : FVec Ideal S128x10 .f32) (b : FVec Ideal S10 .f32) :
    FVec Ideal S50000x10 .f32 :=
  combine (N := 50000) (K := 10) (agg10 e (normCol e) (hidden10 x w)) (hidden10 x w) (selfCol e)
    (shapeCast S1x10 b shapeCasts_S10_S1x10)

/-- The network. -/
def net (x : FVec Ideal S50000x128 .f32) (e : Edges) (w1 : FVec Ideal S128x128 .f32) (b1 : FVec Ideal S128 .f32)
    (w2 : FVec Ideal S128x128 .f32) (b2 : FVec Ideal S128 .f32) (w3 : FVec Ideal S128x10 .f32) (b3 : FVec Ideal S10 .f32) :
    FVec Ideal S50000x10 .f32 :=
  logSoftmax (N := 50000) (K := 10) (layer10 e (layer128 e (layer128 e x w1 b1) w2 b2) w3 b3)

end Cert.Gcn.Net

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«128258_j65111704207441_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.Product0.lean ====
/-
  Region 0: the node features times a weight matrix, one block of 5000 rows per grid point.

  Grid point t loads rows 5000·t … 5000·t + 4999 of the [50000, 128] operand and the whole [128, 128] weight matrix, and
  stores their product (the operands' casts to bf16 are not seen on the extended reals; the accumulator starts at
  zero) as the same rows of the result. Rows of a product are products of rows, and the ten blocks tile the array, so the
  result array ends holding the whole product of the two operand arrays as the region found them.
-/
import proofs.«128258_j65111704207441_1_alg».proof.Proof.Gen.KernelIdeal.Frame
import proofs.«128258_j65111704207441_1_alg».proof.Proof.LibRowsCols
import Idealize.ShloMosaic.Lib.Pipeline.Value

set_option maxRecDepth 16384

noncomputable section

namespace Cert.KernelIdeal.Product0

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's contraction contracts the operand's columns with the weights' rows. -/
theorem rowsCols : RowsCols (R := 5000) (K := 128) (N := 128) dot_S5000x128_S128x128_S5000x128_1_0_0_1_n_n :=
  ⟨rfl, rfl, fun _ _ => rfl, fun _ _ => rfl, fun _ _ => rfl, fun _ _ => rfl⟩

/-- The stored block, entry by entry: the loaded rows times the loaded weights. -/
theorem payload_apply (x0 : Vec Ideal S5000x128 .f32) (x1 : Vec Ideal S128x128 .f32) (j : S5000x128.Idx) :
    k0_pay1 (F := Ideal) x0 x1 j = rowsTimes x0 x1 j := by
  unfold k0_pay1
  exact matmul_zero_apply rowsCols none _ _ j

/-- The printed index maps over the grid: the operand's and the result's blocks are block t of the rows, the weights'
    block is the whole matrix. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What grid point t writes back is block t of the whole product. -/
theorem flushed_eq (c : Dev nD) (t : Fin cfg0.N) :
    (dat0 V c).flushed 2 t
      = ((cfg0.win 2).blk t).view.read (Elt Ideal) (rowsTimes (V c main_arg0) (V c main_arg2) : S50000x128.Idx → EReal) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := index_facts t
  funext j
  show k0_pay1 (F := Ideal) (iblk0 V c 0 t) (iblk0 V c 1 t) j = rowsTimes (V c main_arg0) (V c main_arg2) (((cfg0.win 2).blk t).view.emb j)
  refine (payload_apply _ _ j).trans ?_
  refine rowsTimes_of_rows (V c main_arg0) (V c main_arg2) (iblk0 V c 0 t) (iblk0 V c 1 t) j _ (fun k => ?_) (fun k => ?_)
  · show V c main_arg0 (((cfg0.win 0).blk t).view.emb (ix2 (j 0 : Fin 5000) k)) = V c main_arg0 _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (ix2 k (j 1 : Fin 128))) = V c main_arg2 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the array is in grid point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every row is in the block of the grid point numbered by its quotient by 5000. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  refine ⟨⟨(i 0).val / 5000, by rw [show cfg0.N = grid0.N from rfl, hN]; omega⟩, flush0_2 _, ?_⟩
  rw [mem_block]
  obtain ⟨e0, e1, e2, e3, e4, e5⟩ := index_facts ⟨(i 0).val / 5000, by rw [show cfg0.N = grid0.N from rfl, hN]; omega⟩
  intro a
  match a with
  | ⟨0, _⟩ => show win0_2.index _ (0 : Fin 2) * 5000 ≤ (i 0).val ∧ (i 0).val < win0_2.index _ (0 : Fin 2) * 5000 + 5000; rw [e5]; show (i 0).val / 5000 * 5000 ≤ _ ∧ _ < (i 0).val / 5000 * 5000 + 5000; omega
  | ⟨1, _⟩ => show win0_2.index _ (1 : Fin 2) * 128 ≤ (i 1).val ∧ (i 1).val < win0_2.index _ (1 : Fin 2) * 128 + 128; rw [e4]; omega

/-- The result array after the region: the whole product of the two operand arrays as the region found them. -/
theorem result (c : Dev nD) :
    (dat0 V c).arrAt 2 cfg0.N = (rowsTimes (V c main_arg0) (V c main_arg2) : S50000x128.Idx → EReal) :=
  (dat0 V c).arrAt_eq_of_cover 2 _ (fun t _ => flushed_eq V c t) covered

end Cert.KernelIdeal.Product0

end
-- ==== Proof.Product2.lean ====
/-
  Region 2: the node features times a weight matrix, one block of 5000 rows per grid point.

  Grid point t loads rows 5000·t … 5000·t + 4999 of the [50000, 128] operand and the whole [128, 128] weight matrix, and
  stores their product (the operands' casts to bf16 are not seen on the extended reals; the accumulator starts at
  zero) as the same rows of the result. Rows of a product are products of rows, and the ten blocks tile the array, so the
  result array ends holding the whole product of the two operand arrays as the region found them.
-/
import proofs.«128258_j65111704207441_1_alg».proof.Proof.Gen.KernelIdeal.Frame
import proofs.«128258_j65111704207441_1_alg».proof.Proof.LibRowsCols
import Idealize.ShloMosaic.Lib.Pipeline.Value

set_option maxRecDepth 16384

noncomputable section

namespace Cert.KernelIdeal.Product2

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's contraction contracts the operand's columns with the weights' rows. -/
theorem rowsCols : RowsCols (R := 5000) (K := 128) (N := 128) dot_S5000x128_S128x128_S5000x128_1_0_0_1_n_n :=
  ⟨rfl, rfl, fun _ _ => rfl, fun _ _ => rfl, fun _ _ => rfl, fun _ _ => rfl⟩

/-- The stored block, entry by entry: the loaded rows times the loaded weights. -/
theorem payload_apply (x0 : Vec Ideal S5000x128 .f32) (x1 : Vec Ideal S128x128 .f32) (j : S5000x128.Idx) :
    k2_pay1 (F := Ideal) x0 x1 j = rowsTimes x0 x1 j := by
  unfold k2_pay1
  rw [shapeCast_self]
  exact matmul_zero_apply rowsCols none _ _ j

/-- The printed index maps over the grid: the operand's and the result's blocks are block t of the rows, the weights'
    block is the whole matrix. -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What grid point t writes back is block t of the whole product. -/
theorem flushed_eq (c : Dev nD) (t : Fin cfg2.N) :
    (dat2 V c).flushed 2 t
      = ((cfg2.win 2).blk t).view.read (Elt Ideal) (rowsTimes (V c main_v43) (V c main_arg4) : S50000x128.Idx → EReal) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := index_facts t
  funext j
  show k2_pay1 (F := Ideal) (iblk2 V c 0 t) (iblk2 V c 1 t) j = rowsTimes (V c main_v43) (V c main_arg4) (((cfg2.win 2).blk t).view.emb j)
  refine (payload_apply _ _ j).trans ?_
  refine rowsTimes_of_rows (V c main_v43) (V c main_arg4) (iblk2 V c 0 t) (iblk2 V c 1 t) j _ (fun k => ?_) (fun k => ?_)
  · show V c main_v43 (((cfg2.win 0).blk t).view.emb (ix2 (j 0 : Fin 5000) k)) = V c main_v43 _
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg4 (((cfg2.win 1).blk t).view.emb (ix2 k (j 1 : Fin 128))) = V c main_arg4 _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the array is in grid point t's block iff each coordinate is in the block's range on its axis. -/
theorem mem_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Every row is in the block of the grid point numbered by its quotient by 5000. -/
theorem covered (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  refine ⟨⟨(i 0).val / 5000, by rw [show cfg2.N = grid2.N from rfl, hN]; omega⟩, flush2_2 _, ?_⟩
  rw [mem_block]
  obtain ⟨e0, e1, e2, e3, e4, e5⟩ := index_facts ⟨(i 0).val / 5000, by rw [show cfg2.N = grid2.N from rfl, hN]; omega⟩
  intro a
  match a with
  | ⟨0, _⟩ => show win2_2.index _ (0 : Fin 2) * 5000 ≤ (i 0).val ∧ (i 0).val < win2_2.index _ (0 : Fin 2) * 5000 + 5000; rw [e5]; show (i 0).val / 5000 * 5000 ≤ _ ∧ _ < (i 0).val / 5000 * 5000 + 5000; omega
  | ⟨1, _⟩ => show win2_2.index _ (1 : Fin 2) * 128 ≤ (i 1).val ∧ (i 1).val < win2_2.index _ (1 : Fin 2) * 128 + 128; rw [e4]; omega

/-- The result array after the region: the whole product of the two operand arrays as the region found them. -/
theorem result (c : Dev nD) :
    (dat2 V c).arrAt 2 cfg2.N = (rowsTimes (V c main_v43) (V c main_arg4) : S50000x128.Idx → EReal) :=
  (dat2 V c).arrAt_eq_of_cover 2 _ (fun t _ => flushed_eq V c t) covered

end Cert.KernelIdeal.Product2

end
-- ==== Proof.Product4.lean ====
/-
  Region 4: the node features times a weight matrix, one block of 5000 rows per grid point.

  Grid point t loads rows 5000·t … 5000·t + 4999 of the [50000, 128] operand and the whole [128, 10] weight matrix, and
  stores their product (the operands' casts to bf16 are not seen on the extended reals; the accumulator starts at
  zero) as the same rows of the result. Rows of a product are products of rows, and the ten blocks tile the array, so the
  result array ends holding the whole product of the two operand arrays as the region found them.
-/
import proofs.«128258_j65111704207441_1_alg».proof.Proof.Gen.KernelIdeal.Frame
import proofs.«128258_j65111704207441_1_alg».proof.Proof.LibRowsCols
import Idealize.ShloMosaic.Lib.Pipeline.Value

set_option maxRecDepth 16384

noncomputable section

namespace Cert.KernelIdeal.Product4

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's contraction contracts the operand's columns with the weights' rows. -/
theorem rowsCols : RowsCols (R := 5000) (K := 128) (N := 10) dot_S5000x128_S128x10_S5000x10_1_0_0_1_n_n :=
  ⟨rfl, rfl, fun _ _ => rfl, fun _ _ => rfl, fun _ _ => rfl, fun _ _ => rfl⟩

/-- The stored block, entry by entry: the loaded rows times the loaded weights. -/
theorem payload_apply (x0 : Vec Ideal S5000x128 .f32) (x1 : Vec Ideal S128x10 .f32) (j : S5000x10.Idx) :
    k4_pay1 (F := Ideal) x0 x1 j = rowsTimes x0 x1 j := by
  unfold k4_pay1
  rw [shapeCast_self]
  exact matmul_zero_apply rowsCols none _ _ j

/-- The printed index maps over the grid: the operand's and the result's blocks are block t of the rows, the weights'
    block is the whole matrix. -/
theorem index_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) = t.val :=
  (by decide +kernel : ∀ t : Fin grid4.N, _)

/-- What grid point t writes back is block t of the whole product. -/
theorem flushed_eq (c : Dev nD) (t : Fin cfg4.N) :
    (dat4 V c).flushed 2 t
      = ((cfg4.win 2).blk t).view.read (Elt Ideal) (rowsTimes (V c main_v58) (V c main_arg6) : S50000x10.Idx → EReal) := by
  show (cfg4.win 2).cut (grid4.coords t) ((dat4 V c).after 2 t) = _
  rw [after4_2]
  unfold out4_2
  rw [View.canon_unit_zero origin]
  simp only [View.ld_unit_zero (S := S5000x128) origin, View.ld_unit_zero (S := S128x10) origin]
  obtain ⟨e0, e1, e2, e3, e4, e5⟩ := index_facts t
  funext j
  show k4_pay1 (F := Ideal) (iblk4 V c 0 t) (iblk4 V c 1 t) j = rowsTimes (V c main_v58) (V c main_arg6) (((cfg4.win 2).blk t).view.emb j)
  refine (payload_apply _ _ j).trans ?_
  refine rowsTimes_of_rows (V c main_v58) (V c main_arg6) (iblk4 V c 0 t) (iblk4 V c 1 t) j _ (fun k => ?_) (fun k => ?_)
  · show V c main_v58 (((cfg4.win 0).blk t).view.emb (ix2 (j 0 : Fin 5000) k)) = V c main_v58 _
    refine congrArg _ (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · show V c main_arg6 (((cfg4.win 1).blk t).view.emb (ix2 k (j 1 : Fin 10))) = V c main_arg6 _
    refine congrArg _ (funext fun a => Fin.ext ?_)
    match a with
    | ⟨0, _⟩ => show win4_1.index t (0 : Fin 2) * 128 + 1 * k.val = k.val; omega
    | ⟨1, _⟩ => show win4_1.index t (1 : Fin 2) * 10 + 1 * (j 1).val = win4_2.index t (1 : Fin 2) * 10 + 1 * (j 1).val; omega

/-- An index of the array is in grid point t's block iff each coordinate is in the block's range on its axis. -/
theorem mem_block (t : Fin cfg4.N) (i : S50000x10.Idx) :
    i ∈ ((cfg4.win 2).blk t).view.set ↔ ∀ a : Fin 2, win4_2.index t a * S5000x10.size a ≤ (i a).val ∧ (i a).val < win4_2.index t a * S5000x10.size a + S5000x10.size a := by
  show i ∈ ((View.whole main_v59).slice (win4_2.rect t)).set ↔ _
  rw [View.set_slice_whole, Rect.mem_set_unit]
  exact Iff.rfl

/-- Every row is in the block of the grid point numbered by its quotient by 5000. -/
theorem covered (i : S50000x10.Idx) : ∃ t : Fin cfg4.N, (cfg4.win 2).flush t = true ∧ i ∈ ((cfg4.win 2).blk t).view.set := by
  have hi0 : (i 0).val < 50000 := (i 0).isLt
  have hi1 : (i 1).val < 10 := (i 1).isLt
  have hN : grid4.N = 10 := N_4
  refine ⟨⟨(i 0).val / 5000, by rw [show cfg4.N = grid4.N from rfl, hN]; omega⟩, flush4_2 _, ?_⟩
  rw [mem_block]
  obtain ⟨e0, e1, e2, e3, e4, e5⟩ := index_facts ⟨(i 0).val / 5000, by rw [show cfg4.N = grid4.N from rfl, hN]; omega⟩
  intro a
  match a with
  | ⟨0, _⟩ => show win4_2.index _ (0 : Fin 2) * 5000 ≤ (i 0).val ∧ (i 0).val < win4_2.index _ (0 : Fin 2) * 5000 + 5000; rw [e5]; show (i 0).val / 5000 * 5000 ≤ _ ∧ _ < (i 0).val / 5000 * 5000 + 5000; omega
  | ⟨1, _⟩ => show win4_2.index _ (1 : Fin 2) * 10 ≤ (i 1).val ∧ (i 1).val < win4_2.index _ (1 : Fin 2) * 10 + 10; rw [e4]; omega

/-- The result array after the region: the whole product of the two operand arrays as the region found them. -/
theorem result (c : Dev nD) :
    (dat4 V c).arrAt 2 cfg4.N = (rowsTimes (V c main_v58) (V c main_arg6) : S50000x10.Idx → EReal) :=
  (dat4 V c).arrAt_eq_of_cover 2 _ (fun t _ => flushed_eq V c t) covered

end Cert.KernelIdeal.Product4

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.Combine1.lean ====
/-
  Region 1: the aggregated rows, the self-loop term and the bias combined, then the maximum with zero — one block of
  5000 rows per grid point.

  Grid point t loads rows 5000·t … 5000·t + 4999 of the aggregated array, of h and of the one-column array of self-loop
  weights, and the whole one-row bias, and stores max ((agg + h · d) + b) 0 as the same rows of the result, the column
  repeated along each row and the bias row down the rows. Each entry depends on its own row and column only, and the ten
  blocks tile the array, so the result array ends holding that combination of the four operand arrays as the region
  found them.
-/
import proofs.«128258_j65111704207441_1_alg».proof.Proof.Gen.KernelIdeal.Frame
import proofs.«128258_j65111704207441_1_alg».proof.Proof.LibGcnRows
import proofs.«128258_j65111704207441_1_alg».proof.Proof.LibColumnLayout
import Idealize.ShloMosaic.Lib.Pipeline.Value
import Idealize.ShloMosaic.Lib.ValueLayout

set_option maxRecDepth 16384

noncomputable section

namespace Cert.KernelIdeal.Combine1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The stored block, entry by entry: the combination of the four loaded blocks. -/
theorem payload_apply (x0 x1 : Vec Ideal S5000x128 .f32) (x2 : Vec Ideal S5000x1 .f32) (x3 : Vec Ideal S1x128 .f32) (p : Fin 5000) (k : Fin 128) :
    k1_pay1 (F := Ideal) x0 x1 x2 x3 (ix2 p k) = combine x0 x1 x2 x3 (ix2 p k) := by
  unfold k1_pay1
  rw [combine_apply]
  show max ((shapeCast S5000x128 x0 shapeCasts_S5000x128_S5000x128 (ix2 p k)
      + shapeCast S5000x128 x1 shapeCasts_S5000x128_S5000x128 (ix2 p k)
        * broadcastTo S5000x128 (shapeCast S5000x1 x2 shapeCasts_S5000x1_S5000x1) broadcasts_S5000x1_S5000x128 (ix2 p k))
      + broadcastTo S5000x128 (shapeCast S1x128 x3 shapeCasts_S1x128_S1x128) broadcasts_S1x128_S5000x128 (ix2 p k))
    (Ideal.ofBits .f32 0x00000000#32) = _
  rw [shapeCast_self, shapeCast_self, shapeCast_self, shapeCast_self, ColumnLayout.broadcastTo_a1_ab_apply, broadcastTo_1b_ab_apply]

/-- The printed index maps over the grid: the row-blocked windows are at block t of the rows, the bias at its one block. -/
theorem index_facts : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- What grid point t writes back is block t of the combination of the whole arrays. -/
theorem flushed_eq (c : Dev nD) (t : Fin cfg1.N) :
    (dat1 V c).flushed 4 t
      = ((cfg1.win 4).blk t).view.read (Elt Ideal) (combine (V c main_v41) (V c main_v29) (V c main_v12) (V c main_v42) : S50000x128.Idx → EReal) := by
  show (cfg1.win 4).cut (grid1.coords t) ((dat1 V c).after 4 t) = _
  rw [after1_4]
  unfold out1_4
  rw [View.canon_unit_zero origin]
  simp only [View.ld_unit_zero (S := S5000x128) origin, View.ld_unit_zero (S := S5000x1) origin, View.ld_unit_zero (S := S1x128) origin]
  obtain ⟨o0, o1, a0, a1, h0, h1, d0, d1, b0, b1⟩ := index_facts t
  funext j
  obtain ⟨p, k, rfl⟩ : ∃ (p : Fin 5000) (k : Fin 128), j = ix2 p k := ⟨j 0, j 1, eq_ix2 j⟩
  show k1_pay1 (F := Ideal) (iblk1 V c 0 t) (iblk1 V c 1 t) (iblk1 V c 2 t) (iblk1 V c 3 t) (ix2 p k)
    = combine (V c main_v41) (V c main_v29) (V c main_v12) (V c main_v42) (((cfg1.win 4).blk t).view.emb (ix2 p k))
  refine (payload_apply _ _ _ _ p k).trans ?_
  have hp : p.val < 5000 := p.isLt
  have ht : t.val < 10 := lt_of_lt_of_eq t.isLt N_1
  have hemb : ((cfg1.win 4).blk t).view.emb (ix2 p k) = ix2 (⟨t.val * 5000 + p.val, by omega⟩ : Fin 50000) k := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * k.val = k.val; omega
  rw [hemb]
  refine combine_congr (V c main_v41) (V c main_v29) (V c main_v12) (V c main_v42) (iblk1 V c 0 t) (iblk1 V c 1 t) (iblk1 V c 2 t) (iblk1 V c 3 t)
    (⟨t.val * 5000 + p.val, by omega⟩ : Fin 50000) p k ?_ ?_ ?_ ?_
  · show V c main_v41 (((cfg1.win 0).blk t).view.emb (ix2 p k)) = V c main_v41 _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v29 (((cfg1.win 1).blk t).view.emb (ix2 p k)) = V c main_v29 _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · show V c main_v12 (((cfg1.win 2).blk t).view.emb (ix2 p (0 : Fin 1))) = V c main_v12 _
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  · show V c main_v42 (((cfg1.win 3).blk t).view.emb (ix2 (0 : Fin 1) k)) = V c main_v42 _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega

/-- An index of the array is in grid point t's block iff each coordinate is in the block's range on its axis. -/
theorem mem_block (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Every row is in the block of the grid point numbered by its quotient by 5000. -/
theorem covered (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  refine ⟨⟨(i 0).val / 5000, by rw [show cfg1.N = grid1.N from rfl, hN]; omega⟩, flush1_4 _, ?_⟩
  rw [mem_block]
  obtain ⟨o0, o1, -⟩ := index_facts ⟨(i 0).val / 5000, by rw [show cfg1.N = grid1.N from rfl, hN]; omega⟩
  intro a
  match a with
  | ⟨0, _⟩ => show win1_4.index _ (0 : Fin 2) * 5000 ≤ (i 0).val ∧ (i 0).val < win1_4.index _ (0 : Fin 2) * 5000 + 5000; rw [o0]; show (i 0).val / 5000 * 5000 ≤ _ ∧ _ < (i 0).val / 5000 * 5000 + 5000; omega
  | ⟨1, _⟩ => show win1_4.index _ (1 : Fin 2) * 128 ≤ (i 1).val ∧ (i 1).val < win1_4.index _ (1 : Fin 2) * 128 + 128; rw [o1]; omega

/-- The result array after the region: the combination of the four operand arrays as the region found them. -/
theorem result (c : Dev nD) :
    (dat1 V c).arrAt 4 cfg1.N = (combine (V c main_v41) (V c main_v29) (V c main_v12) (V c main_v42) : S50000x128.Idx → EReal) :=
  (dat1 V c).arrAt_eq_of_cover 4 _ (fun t _ => flushed_eq V c t) covered

end Cert.KernelIdeal.Combine1

end
-- ==== Proof.Combine3.lean ====
/-
  Region 3: the aggregated rows, the self-loop term and the bias combined, then the maximum with zero — one block of
  5000 rows per grid point.

  Grid point t loads rows 5000·t … 5000·t + 4999 of the aggregated array, of h and of the one-column array of self-loop
  weights, and the whole one-row bias, and stores max ((agg + h · d) + b) 0 as the same rows of the result, the column
  repeated along each row and the bias row down the rows. Each entry depends on its own row and column only, and the ten
  blocks tile the array, so the result array ends holding that combination of the four operand arrays as the region
  found them.
-/
import proofs.«128258_j65111704207441_1_alg».proof.Proof.Gen.KernelIdeal.Frame
import proofs.«128258_j65111704207441_1_alg».proof.Proof.LibGcnRows
import proofs.«128258_j65111704207441_1_alg».proof.Proof.LibColumnLayout
import Idealize.ShloMosaic.Lib.Pipeline.Value
import Idealize.ShloMosaic.Lib.ValueLayout

set_option maxRecDepth 16384

noncomputable section

namespace Cert.KernelIdeal.Combine3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The stored block, entry by entry: the combination of the four loaded blocks. -/
theorem payload_apply (x0 x1 : Vec Ideal S5000x128 .f32) (x2 : Vec Ideal S5000x1 .f32) (x3 : Vec Ideal S1x128 .f32) (p : Fin 5000) (k : Fin 128) :
    k3_pay1 (F := Ideal) x0 x1 x2 x3 (ix2 p k) = combine x0 x1 x2 x3 (ix2 p k) := by
  unfold k3_pay1
  rw [combine_apply]
  show max ((shapeCast S5000x128 x0 shapeCasts_S5000x128_S5000x128 (ix2 p k)
      + shapeCast S5000x128 x1 shapeCasts_S5000x128_S5000x128 (ix2 p k)
        * broadcastTo S5000x128 (shapeCast S5000x1 x2 shapeCasts_S5000x1_S5000x1) broadcasts_S5000x1_S5000x128 (ix2 p k))
      + broadcastTo S5000x128 (shapeCast S1x128 x3 shapeCasts_S1x128_S1x128) broadcasts_S1x128_S5000x128 (ix2 p k))
    (Ideal.ofBits .f32 0x00000000#32) = _
  rw [shapeCast_self, shapeCast_self, shapeCast_self, shapeCast_self, ColumnLayout.broadcastTo_a1_ab_apply, broadcastTo_1b_ab_apply]

/-- The printed index maps over the grid: the row-blocked windows are at block t of the rows, the bias at its one block. -/
theorem index_facts : ∀ t : Fin cfg3.N, win3_4.index t (0 : Fin 2) = t.val ∧ win3_4.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0 :=
  (by decide +kernel : ∀ t : Fin grid3.N, _)

/-- What grid point t writes back is block t of the combination of the whole arrays. -/
theorem flushed_eq (c : Dev nD) (t : Fin cfg3.N) :
    (dat3 V c).flushed 4 t
      = ((cfg3.win 4).blk t).view.read (Elt Ideal) (combine (V c main_v56) (V c main_v44) (V c main_v12) (V c main_v57) : S50000x128.Idx → EReal) := by
  show (cfg3.win 4).cut (grid3.coords t) ((dat3 V c).after 4 t) = _
  rw [after3_4]
  unfold out3_4
  rw [View.canon_unit_zero origin]
  simp only [View.ld_unit_zero (S := S5000x128) origin, View.ld_unit_zero (S := S5000x1) origin, View.ld_unit_zero (S := S1x128) origin]
  obtain ⟨o0, o1, a0, a1, h0, h1, d0, d1, b0, b1⟩ := index_facts t
  funext j
  obtain ⟨p, k, rfl⟩ : ∃ (p : Fin 5000) (k : Fin 128), j = ix2 p k := ⟨j 0, j 1, eq_ix2 j⟩
  show k3_pay1 (F := Ideal) (iblk3 V c 0 t) (iblk3 V c 1 t) (iblk3 V c 2 t) (iblk3 V c 3 t) (ix2 p k)
    = combine (V c main_v56) (V c main_v44) (V c main_v12) (V c main_v57) (((cfg3.win 4).blk t).view.emb (ix2 p k))
  refine (payload_apply _ _ _ _ p k).trans ?_
  have hp : p.val < 5000 := p.isLt
  have ht : t.val < 10 := lt_of_lt_of_eq t.isLt N_3
  have hemb : ((cfg3.win 4).blk t).view.emb (ix2 p k) = ix2 (⟨t.val * 5000 + p.val, by omega⟩ : Fin 50000) k := by
    funext a; apply Fin.ext
    match a with
    | ⟨0, _⟩ => show win3_4.index t (0 : Fin 2) * 5000 + 1 * p.val = t.val * 5000 + p.val; omega
    | ⟨1, _⟩ => show win3_4.index t (1 : Fin 2) * 128 + 1 * k.val = k.val; omega
  rw [hemb]
  refine combine_congr (V c main_v56) (V c main_v44) (V c main_v12) (V c main_v57) (iblk3 V c 0 t) (iblk3 V c 1 t) (iblk3 V c 2 t) (iblk3 V c 3 t)
    (⟨t.val * 5000 + p.val, by omega⟩ : Fin 50000) p k ?_ ?_ ?_ ?_
  · show V c main_v56 (((cfg3.win 0).blk t).view.emb (ix2 p k)) = V c main_v56 _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · show V c main_v44 (((cfg3.win 1).blk t).view.emb (ix2 p k)) = V c main_v44 _
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 128 + 1 * k.val = k.val; omega
  · show V c main_v12 (((cfg3.win 2).blk t).view.emb (ix2 p (0 : Fin 1))) = V c main_v12 _
    refine congrArg _ (funext fun a => Fin.ext ?_)
    match a with
    | ⟨0, _⟩ => show win3_2.index t (0 : Fin 2) * 5000 + 1 * p.val = t.val * 5000 + p.val; omega
    | ⟨1, _⟩ => show win3_2.index t (1 : Fin 2) * 1 + 1 * 0 = 0; omega
  · show V c main_v57 (((cfg3.win 3).blk t).view.emb (ix2 (0 : Fin 1) k)) = V c main_v57 _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * k.val = k.val; omega

/-- An index of the array is in grid point t's block iff each coordinate is in the block's range on its axis. -/
theorem mem_block (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v58).slice (win3_4.rect t)).set ↔ _
  rw [View.set_slice_whole, Rect.mem_set_unit]
  exact Iff.rfl

/-- Every row is in the block of the grid point numbered by its quotient by 5000. -/
theorem covered (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : grid3.N = 10 := N_3
  refine ⟨⟨(i 0).val / 5000, by rw [show cfg3.N = grid3.N from rfl, hN]; omega⟩, flush3_4 _, ?_⟩
  rw [mem_block]
  obtain ⟨o0, o1, -⟩ := index_facts ⟨(i 0).val / 5000, by rw [show cfg3.N = grid3.N from rfl, hN]; omega⟩
  intro a
  match a with
  | ⟨0, _⟩ => show win3_4.index _ (0 : Fin 2) * 5000 ≤ (i 0).val ∧ (i 0).val < win3_4.index _ (0 : Fin 2) * 5000 + 5000; rw [o0]; show (i 0).val / 5000 * 5000 ≤ _ ∧ _ < (i 0).val / 5000 * 5000 + 5000; omega
  | ⟨1, _⟩ => show win3_4.index _ (1 : Fin 2) * 128 ≤ (i 1).val ∧ (i 1).val < win3_4.index _ (1 : Fin 2) * 128 + 128; rw [o1]; omega

/-- The result array after the region: the combination of the four operand arrays as the region found them. -/
theorem result (c : Dev nD) :
    (dat3 V c).arrAt 4 cfg3.N = (combine (V c main_v56) (V c main_v44) (V c main_v12) (V c main_v57) : S50000x128.Idx → EReal) :=
  (dat3 V c).arrAt_eq_of_cover 4 _ (fun t _ => flushed_eq V c t) covered

end Cert.KernelIdeal.Combine3

end
-- ==== Proof.Combine5.lean ====
/-
  Region 5: the aggregated rows, the self-loop term and the bias combined, then the maximum with zero — one block of
  5000 rows per grid point.

  Grid point t loads rows 5000·t … 5000·t + 4999 of the aggregated array, of h and of the one-column array of self-loop
  weights, and the whole one-row bias, and stores max ((agg + h · d) + b) 0 as the same rows of the result, the column
  repeated along each row and the bias row down the rows. Each entry depends on its own row and column only, and the ten
  blocks tile the array, so the result array ends holding that combination of the four operand arrays as the region
  found them.
-/
import proofs.«128258_j65111704207441_1_alg».proof.Proof.Gen.KernelIdeal.Frame
import proofs.«128258_j65111704207441_1_alg».proof.Proof.LibGcnRows
import proofs.«128258_j65111704207441_1_alg».proof.Proof.LibColumnLayout
import Idealize.ShloMosaic.Lib.Pipeline.Value
import Idealize.ShloMosaic.Lib.ValueLayout

set_option maxRecDepth 16384

noncomputable section

namespace Cert.KernelIdeal.Combine5

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The stored block, entry by entry: the combination of the four loaded blocks. -/
theorem payload_apply (x0 x1 : Vec Ideal S5000x10 .f32) (x2 : Vec Ideal S5000x1 .f32) (x3 : Vec Ideal S1x10 .f32) (p : Fin 5000) (k : Fin 10) :
    k5_pay1 (F := Ideal) x0 x1 x2 x3 (ix2 p k) = combine x0 x1 x2 x3 (ix2 p k) := by
  unfold k5_pay1
  rw [combine_apply]
  show max ((shapeCast S5000x10 x0 shapeCasts_S5000x10_S5000x10 (ix2 p k)
      + shapeCast S5000x10 x1 shapeCasts_S5000x10_S5000x10 (ix2 p k)
        * broadcastTo S5000x10 (shapeCast S5000x1 x2 shapeCasts_S5000x1_S5000x1) broadcasts_S5000x1_S5000x10 (ix2 p k))
      + broadcastTo S5000x10 (shapeCast S1x10 x3 shapeCasts_S1x10_S1x10) broadcasts_S1x10_S5000x10 (ix2 p k))
    (Ideal.ofBits .f32 0x00000000#32) = _
  rw [shapeCast_self, shapeCast_self, shapeCast_self, shapeCast_self, ColumnLayout.broadcastTo_a1_ab_apply, broadcastTo_1b_ab_apply]

/-- The printed index maps over the grid: the row-blocked windows are at block t of the rows, the bias at its one block. -/
theorem index_facts : ∀ t : Fin cfg5.N, win5_4.index t (0 : Fin 2) = t.val ∧ win5_4.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0 :=
  (by decide +kernel : ∀ t : Fin grid5.N, _)

/-- What grid point t writes back is block t of the combination of the whole arrays. -/
theorem flushed_eq (c : Dev nD) (t : Fin cfg5.N) :
    (dat5 V c).flushed 4 t
      = ((cfg5.win 4).blk t).view.read (Elt Ideal) (combine (V c main_v71) (V c main_v59) (V c main_v12) (V c main_v72) : S50000x10.Idx → EReal) := by
  show (cfg5.win 4).cut (grid5.coords t) ((dat5 V c).after 4 t) = _
  rw [after5_4]
  unfold out5_4
  rw [View.canon_unit_zero origin]
  simp only [View.ld_unit_zero (S := S5000x10) origin, View.ld_unit_zero (S := S5000x1) origin, View.ld_unit_zero (S := S1x10) origin]
  obtain ⟨o0, o1, a0, a1, h0, h1, d0, d1, b0, b1⟩ := index_facts t
  funext j
  obtain ⟨p, k, rfl⟩ : ∃ (p : Fin 5000) (k : Fin 10), j = ix2 p k := ⟨j 0, j 1, eq_ix2 j⟩
  show k5_pay1 (F := Ideal) (iblk5 V c 0 t) (iblk5 V c 1 t) (iblk5 V c 2 t) (iblk5 V c 3 t) (ix2 p k)
    = combine (V c main_v71) (V c main_v59) (V c main_v12) (V c main_v72) (((cfg5.win 4).blk t).view.emb (ix2 p k))
  refine (payload_apply _ _ _ _ p k).trans ?_
  have hp : p.val < 5000 := p.isLt
  have ht : t.val < 10 := lt_of_lt_of_eq t.isLt N_5
  have hemb : ((cfg5.win 4).blk t).view.emb (ix2 p k) = ix2 (⟨t.val * 5000 + p.val, by omega⟩ : Fin 50000) k := by
    funext a; apply Fin.ext
    match a with
    | ⟨0, _⟩ => show win5_4.index t (0 : Fin 2) * 5000 + 1 * p.val = t.val * 5000 + p.val; omega
    | ⟨1, _⟩ => show win5_4.index t (1 : Fin 2) * 10 + 1 * k.val = k.val; omega
  rw [hemb]
  refine combine_congr (V c main_v71) (V c main_v59) (V c main_v12) (V c main_v72) (iblk5 V c 0 t) (iblk5 V c 1 t) (iblk5 V c 2 t) (iblk5 V c 3 t)
    (⟨t.val * 5000 + p.val, by omega⟩ : Fin 50000) p k ?_ ?_ ?_ ?_
  · show V c main_v71 (((cfg5.win 0).blk t).view.emb (ix2 p k)) = V c main_v71 _
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 10 + 1 * k.val = k.val; omega
  · show V c main_v59 (((cfg5.win 1).blk t).view.emb (ix2 p k)) = V c main_v59 _
    refine congrArg _ (funext fun a => Fin.ext ?_)
    match a with
    | ⟨0, _⟩ => show win5_1.index t (0 : Fin 2) * 5000 + 1 * p.val = t.val * 5000 + p.val; omega
    | ⟨1, _⟩ => show win5_1.index t (1 : Fin 2) * 10 + 1 * k.val = k.val; omega
  · show V c main_v12 (((cfg5.win 2).blk t).view.emb (ix2 p (0 : Fin 1))) = V c main_v12 _
    refine congrArg _ (funext fun a => Fin.ext ?_)
    match a with
    | ⟨0, _⟩ => show win5_2.index t (0 : Fin 2) * 5000 + 1 * p.val = t.val * 5000 + p.val; omega
    | ⟨1, _⟩ => show win5_2.index t (1 : Fin 2) * 1 + 1 * 0 = 0; omega
  · show V c main_v72 (((cfg5.win 3).blk t).view.emb (ix2 (0 : Fin 1) k)) = V c main_v72 _
    refine congrArg _ (funext fun a => Fin.ext ?_)
    match a with
    | ⟨0, _⟩ => show win5_3.index t (0 : Fin 2) * 1 + 1 * 0 = 0; omega
    | ⟨1, _⟩ => show win5_3.index t (1 : Fin 2) * 10 + 1 * k.val = k.val; omega

/-- An index of the array is in grid point t's block iff each coordinate is in the block's range on its axis. -/
theorem mem_block (t : Fin cfg5.N) (i : S50000x10.Idx) :
    i ∈ ((cfg5.win 4).blk t).view.set ↔ ∀ a : Fin 2, win5_4.index t a * S5000x10.size a ≤ (i a).val ∧ (i a).val < win5_4.index t a * S5000x10.size a + S5000x10.size a := by
  show i ∈ ((View.whole main_v73).slice (win5_4.rect t)).set ↔ _
  rw [View.set_slice_whole, Rect.mem_set_unit]
  exact Iff.rfl

/-- Every row is in the block of the grid point numbered by its quotient by 5000. -/
theorem covered (i : S50000x10.Idx) : ∃ t : Fin cfg5.N, (cfg5.win 4).flush t = true ∧ i ∈ ((cfg5.win 4).blk t).view.set := by
  have hi0 : (i 0).val < 50000 := (i 0).isLt
  have hi1 : (i 1).val < 10 := (i 1).isLt
  have hN : grid5.N = 10 := N_5
  refine ⟨⟨(i 0).val / 5000, by rw [show cfg5.N = grid5.N from rfl, hN]; omega⟩, flush5_4 _, ?_⟩
  rw [mem_block]
  obtain ⟨o0, o1, -⟩ := index_facts ⟨(i 0).val / 5000, by rw [show cfg5.N = grid5.N from rfl, hN]; omega⟩
  intro a
  match a with
  | ⟨0, _⟩ => show win5_4.index _ (0 : Fin 2) * 5000 ≤ (i 0).val ∧ (i 0).val < win5_4.index _ (0 : Fin 2) * 5000 + 5000; rw [o0]; show (i 0).val / 5000 * 5000 ≤ _ ∧ _ < (i 0).val / 5000 * 5000 + 5000; omega
  | ⟨1, _⟩ => show win5_4.index _ (1 : Fin 2) * 10 ≤ (i 1).val ∧ (i 1).val < win5_4.index _ (1 : Fin 2) * 10 + 10; rw [o1]; omega

/-- The result array after the region: the combination of the four operand arrays as the region found them. -/
theorem result (c : Dev nD) :
    (dat5 V c).arrAt 4 cfg5.N = (combine (V c main_v71) (V c main_v59) (V c main_v12) (V c main_v72) : S50000x10.Idx → EReal) :=
  (dat5 V c).arrAt_eq_of_cover 4 _ (fun t _ => flushed_eq V c t) covered

end Cert.KernelIdeal.Combine5

end
-- ==== Proof.LibHostRowReduce.lean ====
/-
  The host's reductions along the columns of a matrix, and the host's row-wise log-softmax, read at an entry — general
  in the extents m and n, in the two initial words, and with every shape fact taken as a hypothesis, so that nothing
  is ever evaluated at the extents.

  A `stablehlo.reduce` over axis 1 of an [m, n] array folds, for each row, over the row's n entries:
    * `lift_row`: the reduced index `p` with column `k` put back is (p, k);
    * `reduce_max_row`: from the f32 word `w`, the reduce with a maximum body at row `p` is the fold of `max` from that
      word's value over the row (the word is carried, never evaluated);
    * `reduce_add_row`: the sum-reduction from an initial value at row `p` is that value plus the row's sum.
  A scalar constant repeated into an array reads the constant (`splat_apply`); a vector kept as a one-column array,
  and a one-column array repeated along the rows, read the vector at the row (`column_keep`, `column_repeat`).

  The host's log-softmax of an [m, n] array `z` (jax.nn.log_softmax along axis 1): each row's maximum reduced from the
  word `w` and taken once more against `w`'s value (which changes nothing: a maximum taken from a value is already at
  least that value), kept as a column and repeated along the rows; the shifted entries' exponentials summed from the
  word `w0`, whose value is 0; the sum's logarithm, kept and repeated likewise, subtracted from the shifted entries.
  At (p, q) it is `z(p,q) − M − log Σ_k exp (z(p,k) − M)` with `M` the fold of `max` from `w`'s value over row p
  (`logSoftmax_apply`). No entry needs to be finite.
-/
import Idealize.ShloMosaic.PureOps.Ideal.Laws
import Idealize.ShloMosaic.PureOps.Reduce
import Idealize.ShloMosaic.Lib.Pipeline.Value
import Idealize.ShloMosaic.Lib.ValueIdx

noncomputable section

namespace Cert.HostRows

open Idealize.ShloMosaic Idealize.ShloMosaic.ValueIdx

variable {m n : Nat}

/-! ## Reductions along the columns -/

/-- The reduced index `p` with column `k` put back is (p, k). -/
theorem lift_row (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- From the word `w` the host's reduce with a maximum body along the columns, at row `p`, is the fold of `max` from
    `w`'s value over the row. -/
theorem reduce_max_row (x : FVec Ideal (⟨2, ![m, n]⟩ : Shape) .f32) (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (w : BitVec 32) (p : Fin m) :
    Host.reduce FloatOps.maximumf x (constant (⟨0, ![]⟩ : Shape) .f32 w) h' hu (ix1 p)
      = (Finset.univ : Finset (Fin n)).fold max (Ideal.ofBits .f32 w) fun k : Fin n => x (ix2 p k) := by
  rw [Host.reduce_eq_fold_single FloatOps.maximumf x _ h' h hu]
  have hf : (x ∘ h.lift (ix1 p)) = fun k : Fin n => x (ix2 p k) := funext fun k => congrArg x (lift_row h p k)
  exact congrArg (fun f => Finset.fold max (Ideal.ofBits .f32 w) f (Finset.univ : Finset (Fin n))) hf

/-- The host's sum-reduction along the columns from an initial value, at row `p`, is that value plus the row's sum. -/
theorem reduce_add_row (x : (⟨2, ![m, n]⟩ : Shape).Idx → EReal) (h' : (⟨2, ![m, n]⟩ : Shape).ReducesTo [1] (⟨1, ![m]⟩ : Shape))
    (h : (⟨2, ![m, n]⟩ : Shape).Reduces [1] (⟨1, ![m]⟩ : Shape)) (init : EReal) (p : Fin m) :
    Ideal.hostReduceAdd h' x init (ix1 p) = init + ∑ k : Fin n, x (ix2 p k) := by
  rw [Ideal.hostReduceAdd_single h' h]
  exact congrArg (init + ·) (Finset.sum_congr rfl fun k _ => congrArg x (lift_row h p k))

/-! ## Constants and columns laid out by the host -/

/-- A scalar constant repeated into an array reads the constant's value. -/
theorem splat_apply {t : Shape} (dims : Fin (⟨0, ![]⟩ : Shape).rank → Fin t.rank) (h : (⟨0, ![]⟩ : Shape).BroadcastsInDim t dims)
    (w : BitVec 32) (i : t.Idx) :
    broadcastInDim t dims h (constant (F := Ideal) (⟨0, ![]⟩ : Shape) .f32 w) i = Ideal.ofBits .f32 w := rfl

/-- A one-column array repeated along the rows reads its column at the row. -/
theorem column_repeat {α : Type} {b : Nat} (v : (⟨2, ![m, 1]⟩ : Shape).Idx → α)
    (h : (⟨2, ![m, 1]⟩ : Shape).BroadcastsInDim (⟨2, ![m, b]⟩ : Shape) ![0, 1]) (p : Fin m) (k : Fin b) :
    broadcastInDim (⟨2, ![m, b]⟩ : Shape) ![0, 1] h v (ix2 p k) = v (ix2 p (0 : Fin 1)) := by
  refine broadcastInDim_apply _ h v (ix2 p k) (ix2 p (0 : Fin 1)) fun a => ?_
  match a with
  | ⟨0, _⟩ =>
    show p.val = if m = 1 then 0 else p.val
    split
    · have := p.isLt; omega
    · rfl
  | ⟨1, _⟩ => rfl

/-- A vector kept as a one-column array reads the vector at the row. -/
theorem column_keep {α : Type} (x : (⟨1, ![m]⟩ : Shape).Idx → α)
    (h : (⟨1, ![m]⟩ : Shape).BroadcastsInDim (⟨2, ![m, 1]⟩ : Shape) ![0]) (p : Fin m) :
    broadcastInDim (⟨2, ![m, 1]⟩ : Shape) ![0] h x (ix2 p (0 : Fin 1)) = x (ix1 p) := by
  refine broadcastInDim_apply _ h x (ix2 p (0 : Fin 1)) (ix1 p) fun a => ?_
  match a with
  | ⟨0, _⟩ =>
    show p.val = if m = 1 then 0 else p.val
    split
    · have := p.isLt; omega
    · rfl

/-! ## The host's row-wise log-softmax -/

section LogSoftmax

variable (h' : (⟨2, ![m, n]⟩ : Shape).ReducesTo [1] (⟨1, ![m]⟩ : Shape)) (h : (⟨2, ![m, n]⟩ : Shape).Reduces [1] (⟨1, ![m]⟩ : Shape)) (hu : 0 < (⟨0, ![]⟩ : Shape).numel)
  (b0 : (⟨0, ![]⟩ : Shape).BroadcastsInDim (⟨1, ![m]⟩ : Shape) ![]) (b1 : (⟨1, ![m]⟩ : Shape).BroadcastsInDim (⟨2, ![m, 1]⟩ : Shape) ![0])
  (b2 : (⟨2, ![m, 1]⟩ : Shape).BroadcastsInDim (⟨2, ![m, n]⟩ : Shape) ![0, 1]) (w w0 : BitVec 32)

/-- Each row's maximum, reduced from `w` and taken once more against `w`'s value. -/
def rowMaxima (z : FVec Ideal (⟨2, ![m, n]⟩ : Shape) .f32) : FVec Ideal (⟨1, ![m]⟩ : Shape) .f32 :=
  maximumf (broadcastInDim (⟨1, ![m]⟩ : Shape) ![] b0 (constant (F := Ideal) (⟨0, ![]⟩ : Shape) .f32 w))
    (Host.reduce FloatOps.maximumf z (constant (F := Ideal) (⟨0, ![]⟩ : Shape) .f32 w) h' hu)

/-- Each entry's distance to its row's maximum. -/
def shifted (z : FVec Ideal (⟨2, ![m, n]⟩ : Shape) .f32) : FVec Ideal (⟨2, ![m, n]⟩ : Shape) .f32 :=
  subf z (broadcastInDim (⟨2, ![m, n]⟩ : Shape) ![0, 1] b2 (broadcastInDim (⟨2, ![m, 1]⟩ : Shape) ![0] b1 (rowMaxima h' hu b0 w z)))

/-- The shifted entries minus the logarithm of the row's sum of shifted exponentials. -/
def logSoftmax (z : FVec Ideal (⟨2, ![m, n]⟩ : Shape) .f32) : FVec Ideal (⟨2, ![m, n]⟩ : Shape) .f32 :=
  subf (shifted h' hu b0 b1 b2 w z) (broadcastInDim (⟨2, ![m, n]⟩ : Shape) ![0, 1] b2 (Host.log (broadcastInDim (⟨2, ![m, 1]⟩ : Shape) ![0] b1
    (Host.reduceAdd (Host.exp (shifted h' hu b0 b1 b2 w z)) (constant (F := Ideal) (⟨0, ![]⟩ : Shape) .f32 w0) h' hu))))

include h in
theorem rowMaxima_apply (z : FVec Ideal (⟨2, ![m, n]⟩ : Shape) .f32) (p : Fin m) :
    rowMaxima h' hu b0 w z (ix1 p) = (Finset.univ : Finset (Fin n)).fold max (Ideal.ofBits .f32 w) fun k : Fin n => z (ix2 p k) := by
  unfold rowMaxima
  show FloatOps.maximumf (broadcastInDim (⟨1, ![m]⟩ : Shape) ![] b0 (constant (F := Ideal) (⟨0, ![]⟩ : Shape) .f32 w) (ix1 p))
    (Host.reduce FloatOps.maximumf z (constant (F := Ideal) (⟨0, ![]⟩ : Shape) .f32 w) h' hu (ix1 p)) = _
  rw [splat_apply, reduce_max_row z h' h hu w p]
  exact max_eq_right (by rw [Finset.le_fold_max]; exact Or.inl le_rfl)

include h in
theorem shifted_apply (z : FVec Ideal (⟨2, ![m, n]⟩ : Shape) .f32) (p : Fin m) (q : Fin n) :
    shifted h' hu b0 b1 b2 w z (ix2 p q)
      = z (ix2 p q) - (Finset.univ : Finset (Fin n)).fold max (Ideal.ofBits .f32 w) fun k : Fin n => z (ix2 p k) := by
  unfold shifted
  show FloatOps.subf (z (ix2 p q)) (broadcastInDim (⟨2, ![m, n]⟩ : Shape) ![0, 1] b2 (broadcastInDim (⟨2, ![m, 1]⟩ : Shape) ![0] b1 (rowMaxima h' hu b0 w z)) (ix2 p q)) = _
  rw [column_repeat, column_keep, rowMaxima_apply h' h hu b0 w z p]
  rfl

include h in
/-- The host's log-softmax at (p, q), given that the sum's initial word `w0` is worth 0. -/
theorem logSoftmax_apply (hw0 : Ideal.ofBits .f32 w0 = 0) (z : FVec Ideal (⟨2, ![m, n]⟩ : Shape) .f32) (p : Fin m) (q : Fin n) :
    logSoftmax h' hu b0 b1 b2 w w0 z (ix2 p q)
      = (z (ix2 p q) - (Finset.univ : Finset (Fin n)).fold max (Ideal.ofBits .f32 w) fun k : Fin n => z (ix2 p k))
        - Ideal.log (∑ k' : Fin n, Ideal.exp (z (ix2 p k')
            - (Finset.univ : Finset (Fin n)).fold max (Ideal.ofBits .f32 w) fun k : Fin n => z (ix2 p k))) := by
  unfold logSoftmax
  show FloatOps.subf (shifted h' hu b0 b1 b2 w z (ix2 p q)) (broadcastInDim (⟨2, ![m, n]⟩ : Shape) ![0, 1] b2 (Host.log (broadcastInDim (⟨2, ![m, 1]⟩ : Shape) ![0] b1
      (Host.reduceAdd (Host.exp (shifted h' hu b0 b1 b2 w z)) (constant (F := Ideal) (⟨0, ![]⟩ : Shape) .f32 w0) h' hu))) (ix2 p q)) = _
  rw [shifted_apply h' h hu b0 b1 b2 w z p q, column_repeat]
  show FloatOps.subf (F := Ideal) (φ := .f32) _ (Ideal.log (broadcastInDim (⟨2, ![m, 1]⟩ : Shape) ![0] b1
      (Ideal.hostReduceAdd h' (Host.exp (shifted h' hu b0 b1 b2 w z)) (Ideal.ofBits .f32 w0)) (ix2 p (0 : Fin 1)))) = _
  rw [column_keep, reduce_add_row _ h' h, hw0, zero_add]
  refine congrArg (fun s => (z (ix2 p q) - (Finset.univ : Finset (Fin n)).fold max (Ideal.ofBits .f32 w) fun k : Fin n => z (ix2 p k)) - Ideal.log s)
    (Finset.sum_congr rfl fun k' _ => ?_)
  show Ideal.exp (shifted h' hu b0 b1 b2 w z (ix2 p k')) = _
  rw [shifted_apply h' h hu b0 b1 b2 w z p k']

end LogSoftmax

end Cert.HostRows

end
-- ==== Proof.LogSoftmax6.lean ====
/-
  Region 6: the row-wise log-softmax, one block of 5000 rows per grid point.

  Grid point t loads rows 5000·t … 5000·t + 4999 of the [50000, 10] array and stores, for each loaded row z,
  (z q − M) − log Σ_k exp (z k − M) with M the row's maximum taken from the f32 word of −∞; the row maximum and the row
  sum are lane reductions kept as one-column arrays and repeated along the row. Each row is treated by itself, and the
  ten blocks tile the array, so the result array ends holding the log-softmax of the operand array as the region found it.
-/
import proofs.«128258_j65111704207441_1_alg».proof.Proof.Gen.KernelIdeal.Frame
import proofs.«128258_j65111704207441_1_alg».proof.Proof.LibGcnRows
import proofs.«128258_j65111704207441_1_alg».proof.Proof.LibColumnLayout
import proofs.«128258_j65111704207441_1_alg».proof.Proof.LibHostRowReduce
import Idealize.ShloMosaic.Lib.Pipeline.Value
import Idealize.ShloMosaic.Lib.ValueLayout

set_option maxRecDepth 16384

noncomputable section

namespace Cert.KernelIdeal.LogSoftmax6

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- A statistic of each row kept as a one-column array and repeated along the row. -/
def spread (r : FVec Ideal S5000 .f32) : FVec Ideal S5000x10 .f32 :=
  broadcastTo S5000x10 (shapeCast S5000x1 r shapeCasts_S5000_S5000x1) broadcasts_S5000x1_S5000x10

theorem spread_apply (r : FVec Ideal S5000 .f32) (p : Fin 5000) (q : Fin 10) : spread r (ix2 p q) = r (ix1 p) :=
  ColumnLayout.column_broadcast_apply r _ _ p q

/-- Each row's maximum, reduced along the lanes from the word of −∞. -/
def tops (x : FVec Ideal S5000x10 .f32) : FVec Ideal S5000 .f32 :=
  multiReduction .maximumf [1] S5000 x 0xFF800000#32 reduces_S5000x10_S5000 (.inl rfl) rfl

theorem tops_apply (x : FVec Ideal S5000x10 .f32) (p : Fin 5000) : tops x (ix1 p) = rowTop x p := by
  unfold tops
  refine (Ideal.multiReduction_maximumf_single x _ reduces_S5000x10_S5000 _ _ (ix1 p)).trans ?_
  exact congrArg (fun f : Fin 10 → EReal => (Finset.univ : Finset (Fin 10)).fold max (Ideal.ofBits .f32 0xFF800000#32) f)
    (funext fun k => congrArg x (Cert.HostRows.lift_row reduces_S5000x10_S5000 p k))

/-- Each row's sum, reduced along the lanes from zero. -/
def sums (y : FVec Ideal S5000x10 .f32) : FVec Ideal S5000 .f32 :=
  multiReduction .add [1] S5000 y 0x00000000#32 reduces_S5000x10_S5000 (.inl rfl) rfl

theorem sums_apply (y : FVec Ideal S5000x10 .f32) (p : Fin 5000) : sums y (ix1 p) = ∑ k : Fin 10, y (ix2 p k) := by
  unfold sums
  refine (Ideal.multiReduction_add_single y _ reduces_S5000x10_S5000 _ _ (ix1 p)).trans ?_
  exact Finset.sum_congr rfl fun k _ => congrArg y (Cert.HostRows.lift_row reduces_S5000x10_S5000 p k)

/-- The stored block as one expression of the loaded block. -/
theorem payload_eq (x : Vec Ideal S5000x10 .f32) :
    k6_pay1 (F := Ideal) x = subf (subf x (spread (tops x)))
      (broadcastTo S5000x10 (log (shapeCast S5000x1 (sums (exp (subf x (spread (tops x))))) shapeCasts_S5000_S5000x1)) broadcasts_S5000x1_S5000x10) := by
  unfold k6_pay1
  rw [shapeCast_self]
  rfl

/-- The stored block, entry by entry: the log-softmax of the loaded rows. -/
theorem payload_apply (x : Vec Ideal S5000x10 .f32) (p : Fin 5000) (q : Fin 10) :
    k6_pay1 (F := Ideal) x (ix2 p q) = logSoftmax x (ix2 p q) := by
  rw [payload_eq, logSoftmax_apply]
  show (x (ix2 p q) - spread (tops x) (ix2 p q))
    - broadcastTo S5000x10 (log (shapeCast S5000x1 (sums (exp (subf x (spread (tops x))))) shapeCasts_S5000_S5000x1)) broadcasts_S5000x1_S5000x10 (ix2 p q) = _
  rw [spread_apply, tops_apply, ColumnLayout.broadcastTo_a1_ab_apply]
  show (x (ix2 p q) - rowTop x p)
    - Ideal.log (shapeCast S5000x1 (sums (exp (subf x (spread (tops x))))) shapeCasts_S5000_S5000x1 (ix2 p (0 : Fin 1))) = _
  rw [ColumnLayout.shapeCast_a_a1_apply, sums_apply]
  refine congrArg (fun s => (x (ix2 p q) - rowTop x p) - Ideal.log s) (Finset.sum_congr rfl fun k _ => ?_)
  show Ideal.exp (x (ix2 p k) - spread (tops x) (ix2 p k)) = _
  rw [spread_apply, tops_apply]

/-- The printed index maps over the grid: both windows are at block t of the rows. -/
theorem index_facts : ∀ t : Fin cfg6.N, win6_1.index t (0 : Fin 2) = t.val ∧ win6_1.index t (1 : Fin 2) = 0
    ∧ win6_0.index t (0 : Fin 2) = t.val ∧ win6_0.index t (1 : Fin 2) = 0 :=
  (by decide +kernel : ∀ t : Fin grid6.N, _)

/-- What grid point t writes back is block t of the log-softmax of the whole array. -/
theorem flushed_eq (c : Dev nD) (t : Fin cfg6.N) :
    (dat6 V c).flushed 1 t
      = ((cfg6.win 1).blk t).view.read (Elt Ideal) (logSoftmax (V c main_v73) : S50000x10.Idx → EReal) := by
  show (cfg6.win 1).cut (grid6.coords t) ((dat6 V c).after 1 t) = _
  rw [after6_1]
  unfold out6_1
  rw [View.canon_unit_zero origin]
  simp only [View.ld_unit_zero (S := S5000x10) origin]
  obtain ⟨o0, o1, a0, a1⟩ := index_facts t
  funext j
  obtain ⟨p, q, rfl⟩ : ∃ (p : Fin 5000) (q : Fin 10), j = ix2 p q := ⟨j 0, j 1, eq_ix2 j⟩
  show k6_pay1 (F := Ideal) (iblk6 V c 0 t) (ix2 p q) = logSoftmax (V c main_v73) (((cfg6.win 1).blk t).view.emb (ix2 p q))
  refine (payload_apply _ p q).trans ?_
  have hp : p.val < 5000 := p.isLt
  have ht : t.val < 10 := lt_of_lt_of_eq t.isLt N_6
  have hemb : ((cfg6.win 1).blk t).view.emb (ix2 p q) = ix2 (⟨t.val * 5000 + p.val, by omega⟩ : Fin 50000) q := by
    funext a; apply Fin.ext
    match a with
    | ⟨0, _⟩ => show win6_1.index t (0 : Fin 2) * 5000 + 1 * p.val = t.val * 5000 + p.val; omega
    | ⟨1, _⟩ => show win6_1.index t (1 : Fin 2) * 10 + 1 * q.val = q.val; omega
  rw [hemb]
  refine logSoftmax_congr (V c main_v73) (iblk6 V c 0 t) (⟨t.val * 5000 + p.val, by omega⟩ : Fin 50000) p q fun k => ?_
  show V c main_v73 (((cfg6.win 0).blk t).view.emb (ix2 p k)) = V c main_v73 _
  refine congrArg _ (funext fun a => Fin.ext ?_)
  match a with
  | ⟨0, _⟩ => show win6_0.index t (0 : Fin 2) * 5000 + 1 * p.val = t.val * 5000 + p.val; omega
  | ⟨1, _⟩ => show win6_0.index t (1 : Fin 2) * 10 + 1 * k.val = k.val; omega

/-- An index of the array is in grid point t's block iff each coordinate is in the block's range on its axis. -/
theorem mem_block (t : Fin cfg6.N) (i : S50000x10.Idx) :
    i ∈ ((cfg6.win 1).blk t).view.set ↔ ∀ a : Fin 2, win6_1.index t a * S5000x10.size a ≤ (i a).val ∧ (i a).val < win6_1.index t a * S5000x10.size a + S5000x10.size a := by
  show i ∈ ((View.whole main_v74).slice (win6_1.rect t)).set ↔ _
  rw [View.set_slice_whole, Rect.mem_set_unit]
  exact Iff.rfl

/-- Every row is in the block of the grid point numbered by its quotient by 5000. -/
theorem covered (i : S50000x10.Idx) : ∃ t : Fin cfg6.N, (cfg6.win 1).flush t = true ∧ i ∈ ((cfg6.win 1).blk t).view.set := by
  have hi0 : (i 0).val < 50000 := (i 0).isLt
  have hi1 : (i 1).val < 10 := (i 1).isLt
  have hN : grid6.N = 10 := N_6
  refine ⟨⟨(i 0).val / 5000, by rw [show cfg6.N = grid6.N from rfl, hN]; omega⟩, flush6_1 _, ?_⟩
  rw [mem_block]
  obtain ⟨o0, o1, -⟩ := index_facts ⟨(i 0).val / 5000, by rw [show cfg6.N = grid6.N from rfl, hN]; omega⟩
  intro a
  match a with
  | ⟨0, _⟩ => show win6_1.index _ (0 : Fin 2) * 5000 ≤ (i 0).val ∧ (i 0).val < win6_1.index _ (0 : Fin 2) * 5000 + 5000; rw [o0]; show (i 0).val / 5000 * 5000 ≤ _ ∧ _ < (i 0).val / 5000 * 5000 + 5000; omega
  | ⟨1, _⟩ => show win6_1.index _ (1 : Fin 2) * 10 ≤ (i 1).val ∧ (i 1).val < win6_1.index _ (1 : Fin 2) * 10 + 10; rw [o1]; omega

/-- The result array after the region: the log-softmax of the operand array as the region found it. -/
theorem result (c : Dev nD) :
    (dat6 V c).arrAt 1 cfg6.N = (logSoftmax (V c main_v73) : S50000x10.Idx → EReal) :=
  (dat6 V c).arrAt_eq_of_cover 1 _ (fun t _ => flushed_eq V c t) covered

end Cert.KernelIdeal.LogSoftmax6

end
-- ==== Proof.KernelValue.lean ====
/-
  The idealized kernel's result, read through the run boundary by boundary.

  The contents of the buffers at each boundary of the run are a fold from the launch memory. Read forward: the first
  stretch of host operations leaves the graph side (sources, targets, self-loop weights, edge weights); each matmul
  region leaves the product of its operand arrays; each later stretch of host operations leaves the aggregation of the
  latest product and the bias as a row; each combine region leaves the layer's output; the last region leaves the
  log-softmax. A buffer nobody writes in a segment is carried through it unchanged. At the end the result buffer
  holds the network applied to the argument arrays.
-/
import proofs.«128258_j65111704207441_1_alg».proof.Proof.KernelRun
import proofs.«128258_j65111704207441_1_alg».proof.Proof.GcnNet
import proofs.«128258_j65111704207441_1_alg».proof.Proof.Product0
import proofs.«128258_j65111704207441_1_alg».proof.Proof.Product2
import proofs.«128258_j65111704207441_1_alg».proof.Proof.Product4
import proofs.«128258_j65111704207441_1_alg».proof.Proof.Combine1
import proofs.«128258_j65111704207441_1_alg».proof.Proof.Combine3
import proofs.«128258_j65111704207441_1_alg».proof.Proof.Combine5
import proofs.«128258_j65111704207441_1_alg».proof.Proof.LogSoftmax6
import Idealize.ShloMosaic.Lib.StableHlo.Run

set_option maxRecDepth 16384

noncomputable section

namespace Cert.KernelIdeal.Whole

open Cert.KernelIdeal Cert.KernelIdeal.Gen Cert.KernelIdeal.Facts₀
open Cert.Gcn Cert.Gcn.Host Cert.Gcn.Net Cert.Dense
open Idealize.ShloMosaic Idealize.ShloMosaic.TcCoe Idealize.SL.Sem Idealize.ShloMosaic.StableHlo

/-- A buffer that no operation of a stretch of host operations writes holds after the stretch what it held before. -/
macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## After the first stretch of host operations: the graph side, from the edge list -/

theorem W1_v1 : W1 m ρ c (Proc.devRef .tc main_v1) = srcRow (m ((c : Thread nD τ).loc main_arg1)) := by
  show StableHlo.after hostOps0 (W0 m ρ c) (Proc.devRef .tc main_v1) = _
  after_results_simp
  rfl

theorem W1_v3 : W1 m ρ c (Proc.devRef .tc main_v3) = dstRow (m ((c : Thread nD τ).loc main_arg1)) := by
  show StableHlo.after hostOps0 (W0 m ρ c) (Proc.devRef .tc main_v3) = _
  after_results_simp
  rfl

theorem W1_v12 : W1 m ρ c (Proc.devRef .tc main_v12) = selfCol (m ((c : Thread nD τ).loc main_arg1)) := by
  show StableHlo.after hostOps0 (W0 m ρ c) (Proc.devRef .tc main_v12) = _
  after_results_simp
  rfl

theorem W1_v28 : W1 m ρ c (Proc.devRef .tc main_v28) = normCol (m ((c : Thread nD τ).loc main_arg1)) := by
  show StableHlo.after hostOps0 (W0 m ρ c) (Proc.devRef .tc main_v28) = _
  after_results_simp
  rfl

theorem W1_arg0 : W1 m ρ c (Proc.devRef .tc main_arg0) = (m ((c : Thread nD τ).loc main_arg0)) :=
  (by host_keeps hostOps0 : W1 m ρ c (Proc.devRef .tc main_arg0) = W0 m ρ c (Proc.devRef .tc main_arg0)).trans (rfl : W0 m ρ c (Proc.devRef .tc main_arg0) = (m ((c : Thread nD τ).loc main_arg0)))

theorem W1_arg2 : W1 m ρ c (Proc.devRef .tc main_arg2) = (m ((c : Thread nD τ).loc main_arg2)) :=
  (by host_keeps hostOps0 : W1 m ρ c (Proc.devRef .tc main_arg2) = W0 m ρ c (Proc.devRef .tc main_arg2)).trans (rfl : W0 m ρ c (Proc.devRef .tc main_arg2) = (m ((c : Thread nD τ).loc main_arg2)))

theorem W1_arg3 : W1 m ρ c (Proc.devRef .tc main_arg3) = (m ((c : Thread nD τ).loc main_arg3)) :=
  (by host_keeps hostOps0 : W1 m ρ c (Proc.devRef .tc main_arg3) = W0 m ρ c (Proc.devRef .tc main_arg3)).trans (rfl : W0 m ρ c (Proc.devRef .tc main_arg3) = (m ((c : Thread nD τ).loc main_arg3)))

theorem W1_arg4 : W1 m ρ c (Proc.devRef .tc main_arg4) = (m ((c : Thread nD τ).loc main_arg4)) :=
  (by host_keeps hostOps0 : W1 m ρ c (Proc.devRef .tc main_arg4) = W0 m ρ c (Proc.devRef .tc main_arg4)).trans (rfl : W0 m ρ c (Proc.devRef .tc main_arg4) = (m ((c : Thread nD τ).loc main_arg4)))

theorem W1_arg5 : W1 m ρ c (Proc.devRef .tc main_arg5) = (m ((c : Thread nD τ).loc main_arg5)) :=
  (by host_keeps hostOps0 : W1 m ρ c (Proc.devRef .tc main_arg5) = W0 m ρ c (Proc.devRef .tc main_arg5)).trans (rfl : W0 m ρ c (Proc.devRef .tc main_arg5) = (m ((c : Thread nD τ).loc main_arg5)))

theorem W1_arg6 : W1 m ρ c (Proc.devRef .tc main_arg6) = (m ((c : Thread nD τ).loc main_arg6)) :=
  (by host_keeps hostOps0 : W1 m ρ c (Proc.devRef .tc main_arg6) = W0 m ρ c (Proc.devRef .tc main_arg6)).trans (rfl : W0 m ρ c (Proc.devRef .tc main_arg6) = (m ((c : Thread nD τ).loc main_arg6)))

theorem W1_arg7 : W1 m ρ c (Proc.devRef .tc main_arg7) = (m ((c : Thread nD τ).loc main_arg7)) :=
  (by host_keeps hostOps0 : W1 m ρ c (Proc.devRef .tc main_arg7) = W0 m ρ c (Proc.devRef .tc main_arg7)).trans (rfl : W0 m ρ c (Proc.devRef .tc main_arg7) = (m ((c : Thread nD τ).loc main_arg7)))

/-! ## After region 0: the first product -/

theorem W2_v29 : W2 m ρ c (Proc.devRef .tc main_v29) = (hidden128 (m ((c : Thread nD τ).loc main_arg0)) (m ((c : Thread nD τ).loc main_arg2))) :=
  (W2_arr m ρ c 2).trans ((Product0.result (V1 m ρ) c).trans (by
    show rowsTimes (M := 50000) (K := 128) (N := 128) (W1 m ρ c (Proc.devRef .tc main_arg0)) (W1 m ρ c (Proc.devRef .tc main_arg2)) = _
    rw [W1_arg0 m ρ c, W1_arg2 m ρ c]; rfl))

theorem W2_v1 : W2 m ρ c (Proc.devRef .tc main_v1) = srcRow (m ((c : Thread nD τ).loc main_arg1)) :=
  (W2_of_ne m ρ c main_v1 (by decide)).trans (W1_v1 m ρ c)

theorem W2_v3 : W2 m ρ c (Proc.devRef .tc main_v3) = dstRow (m ((c : Thread nD τ).loc main_arg1)) :=
  (W2_of_ne m ρ c main_v3 (by decide)).trans (W1_v3 m ρ c)

theorem W2_v28 : W2 m ρ c (Proc.devRef .tc main_v28) = normCol (m ((c : Thread nD τ).loc main_arg1)) :=
  (W2_of_ne m ρ c main_v28 (by decide)).trans (W1_v28 m ρ c)

theorem W2_v12 : W2 m ρ c (Proc.devRef .tc main_v12) = selfCol (m ((c : Thread nD τ).loc main_arg1)) :=
  (W2_of_ne m ρ c main_v12 (by decide)).trans (W1_v12 m ρ c)

theorem W2_arg3 : W2 m ρ c (Proc.devRef .tc main_arg3) = (m ((c : Thread nD τ).loc main_arg3)) :=
  (W2_of_ne m ρ c main_arg3 (by decide)).trans (W1_arg3 m ρ c)

theorem W2_arg4 : W2 m ρ c (Proc.devRef .tc main_arg4) = (m ((c : Thread nD τ).loc main_arg4)) :=
  (W2_of_ne m ρ c main_arg4 (by decide)).trans (W1_arg4 m ρ c)

theorem W2_arg5 : W2 m ρ c (Proc.devRef .tc main_arg5) = (m ((c : Thread nD τ).loc main_arg5)) :=
  (W2_of_ne m ρ c main_arg5 (by decide)).trans (W1_arg5 m ρ c)

theorem W2_arg6 : W2 m ρ c (Proc.devRef .tc main_arg6) = (m ((c : Thread nD τ).loc main_arg6)) :=
  (W2_of_ne m ρ c main_arg6 (by decide)).trans (W1_arg6 m ρ c)

theorem W2_arg7 : W2 m ρ c (Proc.devRef .tc main_arg7) = (m ((c : Thread nD τ).loc main_arg7)) :=
  (W2_of_ne m ρ c main_arg7 (by decide)).trans (W1_arg7 m ρ c)

/-! ## Layer 1: aggregation on the host, then region 1 -/

theorem W3_v41 : W3 m ρ c (Proc.devRef .tc main_v41) = agg128 (m ((c : Thread nD τ).loc main_arg1)) (normCol (m ((c : Thread nD τ).loc main_arg1))) (hidden128 (m ((c : Thread nD τ).loc main_arg0)) (m ((c : Thread nD τ).loc main_arg2))) := by
  show StableHlo.after hostOps1 (W2 m ρ c) (Proc.devRef .tc main_v41) = _
  after_results_simp
  rw [W2_v3 m ρ c, W2_v1 m ρ c, W2_v28 m ρ c, W2_v29 m ρ c]
  rfl

theorem W3_v42 : W3 m ρ c (Proc.devRef .tc main_v42) = shapeCast S1x128 (m ((c : Thread nD τ).loc main_arg3)) Facts₀.shapeCasts_S128_S1x128 := by
  show StableHlo.after hostOps1 (W2 m ρ c) (Proc.devRef .tc main_v42) = _
  after_results_simp
  rw [W2_arg3 m ρ c]
  rfl

theorem W3_v1 : W3 m ρ c (Proc.devRef .tc main_v1) = srcRow (m ((c : Thread nD τ).loc main_arg1)) :=
  (by host_keeps hostOps1 : W3 m ρ c (Proc.devRef .tc main_v1) = W2 m ρ c (Proc.devRef .tc main_v1)).trans (W2_v1 m ρ c)

theorem W3_v3 : W3 m ρ c (Proc.devRef .tc main_v3) = dstRow (m ((c : Thread nD τ).loc main_arg1)) :=
  (by host_keeps hostOps1 : W3 m ρ c (Proc.devRef .tc main_v3) = W2 m ρ c (Proc.devRef .tc main_v3)).trans (W2_v3 m ρ c)

theorem W3_v28 : W3 m ρ c (Proc.devRef .tc main_v28) = normCol (m ((c : Thread nD τ).loc main_arg1)) :=
  (by host_keeps hostOps1 : W3 m ρ c (Proc.devRef .tc main_v28) = W2 m ρ c (Proc.devRef .tc main_v28)).trans (W2_v28 m ρ c)

theorem W3_v12 : W3 m ρ c (Proc.devRef .tc main_v12) = selfCol (m ((c : Thread nD τ).loc main_arg1)) :=
  (by host_keeps hostOps1 : W3 m ρ c (Proc.devRef .tc main_v12) = W2 m ρ c (Proc.devRef .tc main_v12)).trans (W2_v12 m ρ c)

theorem W3_arg4 : W3 m ρ c (Proc.devRef .tc main_arg4) = (m ((c : Thread nD τ).loc main_arg4)) :=
  (by host_keeps hostOps1 : W3 m ρ c (Proc.devRef .tc main_arg4) = W2 m ρ c (Proc.devRef .tc main_arg4)).trans (W2_arg4 m ρ c)

theorem W3_arg5 : W3 m ρ c (Proc.devRef .tc main_arg5) = (m ((c : Thread nD τ).loc main_arg5)) :=
  (by host_keeps hostOps1 : W3 m ρ c (Proc.devRef .tc main_arg5) = W2 m ρ c (Proc.devRef .tc main_arg5)).trans (W2_arg5 m ρ c)

theorem W3_arg6 : W3 m ρ c (Proc.devRef .tc main_arg6) = (m ((c : Thread nD τ).loc main_arg6)) :=
  (by host_keeps hostOps1 : W3 m ρ c (Proc.devRef .tc main_arg6) = W2 m ρ c (Proc.devRef .tc main_arg6)).trans (W2_arg6 m ρ c)

theorem W3_arg7 : W3 m ρ c (Proc.devRef .tc main_arg7) = (m ((c : Thread nD τ).loc main_arg7)) :=
  (by host_keeps hostOps1 : W3 m ρ c (Proc.devRef .tc main_arg7) = W2 m ρ c (Proc.devRef .tc main_arg7)).trans (W2_arg7 m ρ c)

theorem W3_v29 : W3 m ρ c (Proc.devRef .tc main_v29) = (hidden128 (m ((c : Thread nD τ).loc main_arg0)) (m ((c : Thread nD τ).loc main_arg2))) :=
  (by host_keeps hostOps1 : W3 m ρ c (Proc.devRef .tc main_v29) = W2 m ρ c (Proc.devRef .tc main_v29)).trans (W2_v29 m ρ c)

theorem W4_v43 : W4 m ρ c (Proc.devRef .tc main_v43) = (layer128 (m ((c : Thread nD τ).loc main_arg1)) (m ((c : Thread nD τ).loc main_arg0)) (m ((c : Thread nD τ).loc main_arg2)) (m ((c : Thread nD τ).loc main_arg3))) :=
  (W4_arr m ρ c 4).trans ((Combine1.result (V3 m ρ) c).trans (by
    show combine (W3 m ρ c (Proc.devRef .tc main_v41)) (W3 m ρ c (Proc.devRef .tc main_v29)) (W3 m ρ c (Proc.devRef .tc main_v12)) (W3 m ρ c (Proc.devRef .tc main_v42)) = _
    rw [W3_v41 m ρ c, W3_v29 m ρ c, W3_v12 m ρ c, W3_v42 m ρ c]; rfl))

theorem W4_v1 : W4 m ρ c (Proc.devRef .tc main_v1) = srcRow (m ((c : Thread nD τ).loc main_arg1)) :=
  (W4_of_ne m ρ c main_v1 (by decide)).trans (W3_v1 m ρ c)

theorem W4_v3 : W4 m ρ c (Proc.devRef .tc main_v3) = dstRow (m ((c : Thread nD τ).loc main_arg1)) :=
  (W4_of_ne m ρ c main_v3 (by decide)).trans (W3_v3 m ρ c)

theorem W4_v28 : W4 m ρ c (Proc.devRef .tc main_v28) = normCol (m ((c : Thread nD τ).loc main_arg1)) :=
  (W4_of_ne m ρ c main_v28 (by decide)).trans (W3_v28 m ρ c)

theorem W4_v12 : W4 m ρ c (Proc.devRef .tc main_v12) = selfCol (m ((c : Thread nD τ).loc main_arg1)) :=
  ((W4_arr m ρ c 2).trans (((dat1 (V3 m ρ) c).arrAt_in 2 rfl _).trans (A_eq1 (V3 m ρ) c 2))).trans (W3_v12 m ρ c)

theorem W4_arg4 : W4 m ρ c (Proc.devRef .tc main_arg4) = (m ((c : Thread nD τ).loc main_arg4)) :=
  (W4_of_ne m ρ c main_arg4 (by decide)).trans (W3_arg4 m ρ c)

theorem W4_arg5 : W4 m ρ c (Proc.devRef .tc main_arg5) = (m ((c : Thread nD τ).loc main_arg5)) :=
  (W4_of_ne m ρ c main_arg5 (by decide)).trans (W3_arg5 m ρ c)

theorem W4_arg6 : W4 m ρ c (Proc.devRef .tc main_arg6) = (m ((c : Thread nD τ).loc main_arg6)) :=
  (W4_of_ne m ρ c main_arg6 (by decide)).trans (W3_arg6 m ρ c)

theorem W4_arg7 : W4 m ρ c (Proc.devRef .tc main_arg7) = (m ((c : Thread nD τ).loc main_arg7)) :=
  (W4_of_ne m ρ c main_arg7 (by decide)).trans (W3_arg7 m ρ c)

/-! ## Region 2: the second product -/

theorem W5_v44 : W5 m ρ c (Proc.devRef .tc main_v44) = (hidden128 (layer128 (m ((c : Thread nD τ).loc main_arg1)) (m ((c : Thread nD τ).loc main_arg0)) (m ((c : Thread nD τ).loc main_arg2)) (m ((c : Thread nD τ).loc main_arg3))) (m ((c : Thread nD τ).loc main_arg4))) :=
  (W5_arr m ρ c 2).trans ((Product2.result (V4 m ρ) c).trans (by
    show rowsTimes (M := 50000) (K := 128) (N := 128) (W4 m ρ c (Proc.devRef .tc main_v43)) (W4 m ρ c (Proc.devRef .tc main_arg4)) = _
    rw [W4_v43 m ρ c, W4_arg4 m ρ c]; rfl))

theorem W5_v1 : W5 m ρ c (Proc.devRef .tc main_v1) = srcRow (m ((c : Thread nD τ).loc main_arg1)) :=
  (W5_of_ne m ρ c main_v1 (by decide)).trans (W4_v1 m ρ c)

theorem W5_v3 : W5 m ρ c (Proc.devRef .tc main_v3) = dstRow (m ((c : Thread nD τ).loc main_arg1)) :=
  (W5_of_ne m ρ c main_v3 (by decide)).trans (W4_v3 m ρ c)

theorem W5_v28 : W5 m ρ c (Proc.devRef .tc main_v28) = normCol (m ((c : Thread nD τ).loc main_arg1)) :=
  (W5_of_ne m ρ c main_v28 (by decide)).trans (W4_v28 m ρ c)

theorem W5_v12 : W5 m ρ c (Proc.devRef .tc main_v12) = selfCol (m ((c : Thread nD τ).loc main_arg1)) :=
  (W5_of_ne m ρ c main_v12 (by decide)).trans (W4_v12 m ρ c)

theorem W5_arg5 : W5 m ρ c (Proc.devRef .tc main_arg5) = (m ((c : Thread nD τ).loc main_arg5)) :=
  (W5_of_ne m ρ c main_arg5 (by decide)).trans (W4_arg5 m ρ c)

theorem W5_arg6 : W5 m ρ c (Proc.devRef .tc main_arg6) = (m ((c : Thread nD τ).loc main_arg6)) :=
  (W5_of_ne m ρ c main_arg6 (by decide)).trans (W4_arg6 m ρ c)

theorem W5_arg7 : W5 m ρ c (Proc.devRef .tc main_arg7) = (m ((c : Thread nD τ).loc main_arg7)) :=
  (W5_of_ne m ρ c main_arg7 (by decide)).trans (W4_arg7 m ρ c)

/-! ## Layer 2: aggregation on the host, then region 3 -/

theorem W6_v56 : W6 m ρ c (Proc.devRef .tc main_v56) = agg128 (m ((c : Thread nD τ).loc main_arg1)) (normCol (m ((c : Thread nD τ).loc main_arg1))) (hidden128 (layer128 (m ((c : Thread nD τ).loc main_arg1)) (m ((c : Thread nD τ).loc main_arg0)) (m ((c : Thread nD τ).loc main_arg2)) (m ((c : Thread nD τ).loc main_arg3))) (m ((c : Thread nD τ).loc main_arg4))) := by
  show StableHlo.after hostOps3 (W5 m ρ c) (Proc.devRef .tc main_v56) = _
  after_results_simp
  rw [W5_v3 m ρ c, W5_v1 m ρ c, W5_v28 m ρ c, W5_v44 m ρ c]
  rfl

theorem W6_v57 : W6 m ρ c (Proc.devRef .tc main_v57) = shapeCast S1x128 (m ((c : Thread nD τ).loc main_arg5)) Facts₀.shapeCasts_S128_S1x128 := by
  show StableHlo.after hostOps3 (W5 m ρ c) (Proc.devRef .tc main_v57) = _
  after_results_simp
  rw [W5_arg5 m ρ c]
  rfl

theorem W6_v1 : W6 m ρ c (Proc.devRef .tc main_v1) = srcRow (m ((c : Thread nD τ).loc main_arg1)) :=
  (by host_keeps hostOps3 : W6 m ρ c (Proc.devRef .tc main_v1) = W5 m ρ c (Proc.devRef .tc main_v1)).trans (W5_v1 m ρ c)

theorem W6_v3 : W6 m ρ c (Proc.devRef .tc main_v3) = dstRow (m ((c : Thread nD τ).loc main_arg1)) :=
  (by host_keeps hostOps3 : W6 m ρ c (Proc.devRef .tc main_v3) = W5 m ρ c (Proc.devRef .tc main_v3)).trans (W5_v3 m ρ c)

theorem W6_v28 : W6 m ρ c (Proc.devRef .tc main_v28) = normCol (m ((c : Thread nD τ).loc main_arg1)) :=
  (by host_keeps hostOps3 : W6 m ρ c (Proc.devRef .tc main_v28) = W5 m ρ c (Proc.devRef .tc main_v28)).trans (W5_v28 m ρ c)

theorem W6_v12 : W6 m ρ c (Proc.devRef .tc main_v12) = selfCol (m ((c : Thread nD τ).loc main_arg1)) :=
  (by host_keeps hostOps3 : W6 m ρ c (Proc.devRef .tc main_v12) = W5 m ρ c (Proc.devRef .tc main_v12)).trans (W5_v12 m ρ c)

theorem W6_arg6 : W6 m ρ c (Proc.devRef .tc main_arg6) = (m ((c : Thread nD τ).loc main_arg6)) :=
  (by host_keeps hostOps3 : W6 m ρ c (Proc.devRef .tc main_arg6) = W5 m ρ c (Proc.devRef .tc main_arg6)).trans (W5_arg6 m ρ c)

theorem W6_arg7 : W6 m ρ c (Proc.devRef .tc main_arg7) = (m ((c : Thread nD τ).loc main_arg7)) :=
  (by host_keeps hostOps3 : W6 m ρ c (Proc.devRef .tc main_arg7) = W5 m ρ c (Proc.devRef .tc main_arg7)).trans (W5_arg7 m ρ c)

theorem W6_v44 : W6 m ρ c (Proc.devRef .tc main_v44) = (hidden128 (layer128 (m ((c : Thread nD τ).loc main_arg1)) (m ((c : Thread nD τ).loc main_arg0)) (m ((c : Thread nD τ).loc main_arg2)) (m ((c : Thread nD τ).loc main_arg3))) (m ((c : Thread nD τ).loc main_arg4))) :=
  (by host_keeps hostOps3 : W6 m ρ c (Proc.devRef .tc main_v44) = W5 m ρ c (Proc.devRef .tc main_v44)).trans (W5_v44 m ρ c)

theorem W7_v58 : W7 m ρ c (Proc.devRef .tc main_v58) = (layer128 (m ((c : Thread nD τ).loc main_arg1)) (layer128 (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) :=
  (W7_arr m ρ c 4).trans ((Combine3.result (V6 m ρ) c).trans (by
    show combine (W6 m ρ c (Proc.devRef .tc main_v56)) (W6 m ρ c (Proc.devRef .tc main_v44)) (W6 m ρ c (Proc.devRef .tc main_v12)) (W6 m ρ c (Proc.devRef .tc main_v57)) = _
    rw [W6_v56 m ρ c, W6_v44 m ρ c, W6_v12 m ρ c, W6_v57 m ρ c]; rfl))

theorem W7_v1 : W7 m ρ c (Proc.devRef .tc main_v1) = srcRow (m ((c : Thread nD τ).loc main_arg1)) :=
  (W7_of_ne m ρ c main_v1 (by decide)).trans (W6_v1 m ρ c)

theorem W7_v3 : W7 m ρ c (Proc.devRef .tc main_v3) = dstRow (m ((c : Thread nD τ).loc main_arg1)) :=
  (W7_of_ne m ρ c main_v3 (by decide)).trans (W6_v3 m ρ c)

theorem W7_v28 : W7 m ρ c (Proc.devRef .tc main_v28) = normCol (m ((c : Thread nD τ).loc main_arg1)) :=
  (W7_of_ne m ρ c main_v28 (by decide)).trans (W6_v28 m ρ c)

theorem W7_v12 : W7 m ρ c (Proc.devRef .tc main_v12) = selfCol (m ((c : Thread nD τ).loc main_arg1)) :=
  ((W7_arr m ρ c 2).trans (((dat3 (V6 m ρ) c).arrAt_in 2 rfl _).trans (A_eq3 (V6 m ρ) c 2))).trans (W6_v12 m ρ c)

theorem W7_arg6 : W7 m ρ c (Proc.devRef .tc main_arg6) = (m ((c : Thread nD τ).loc main_arg6)) :=
  (W7_of_ne m ρ c main_arg6 (by decide)).trans (W6_arg6 m ρ c)

theorem W7_arg7 : W7 m ρ c (Proc.devRef .tc main_arg7) = (m ((c : Thread nD τ).loc main_arg7)) :=
  (W7_of_ne m ρ c main_arg7 (by decide)).trans (W6_arg7 m ρ c)

/-! ## Region 4: the third product -/

theorem W8_v59 : W8 m ρ c (Proc.devRef .tc main_v59) = (hidden10 (layer128 (m ((c : Thread nD τ).loc main_arg1)) (layer128 (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6))) :=
  (W8_arr m ρ c 2).trans ((Product4.result (V7 m ρ) c).trans (by
    show rowsTimes (M := 50000) (K := 128) (N := 10) (W7 m ρ c (Proc.devRef .tc main_v58)) (W7 m ρ c (Proc.devRef .tc main_arg6)) = _
    rw [W7_v58 m ρ c, W7_arg6 m ρ c]; rfl))

theorem W8_v1 : W8 m ρ c (Proc.devRef .tc main_v1) = srcRow (m ((c : Thread nD τ).loc main_arg1)) :=
  (W8_of_ne m ρ c main_v1 (by decide)).trans (W7_v1 m ρ c)

theorem W8_v3 : W8 m ρ c (Proc.devRef .tc main_v3) = dstRow (m ((c : Thread nD τ).loc main_arg1)) :=
  (W8_of_ne m ρ c main_v3 (by decide)).trans (W7_v3 m ρ c)

theorem W8_v28 : W8 m ρ c (Proc.devRef .tc main_v28) = normCol (m ((c : Thread nD τ).loc main_arg1)) :=
  (W8_of_ne m ρ c main_v28 (by decide)).trans (W7_v28 m ρ c)

theorem W8_v12 : W8 m ρ c (Proc.devRef .tc main_v12) = selfCol (m ((c : Thread nD τ).loc main_arg1)) :=
  (W8_of_ne m ρ c main_v12 (by decide)).trans (W7_v12 m ρ c)

theorem W8_arg7 : W8 m ρ c (Proc.devRef .tc main_arg7) = (m ((c : Thread nD τ).loc main_arg7)) :=
  (W8_of_ne m ρ c main_arg7 (by decide)).trans (W7_arg7 m ρ c)

/-! ## Layer 3: aggregation on the host, then region 5 -/

theorem W9_v71 : W9 m ρ c (Proc.devRef .tc main_v71) = agg10 (m ((c : Thread nD τ).loc main_arg1)) (normCol (m ((c : Thread nD τ).loc main_arg1))) (hidden10 (layer128 (m ((c : Thread nD τ).loc main_arg1)) (layer128 (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6))) := by
  show StableHlo.after hostOps5 (W8 m ρ c) (Proc.devRef .tc main_v71) = _
  after_results_simp
  rw [W8_v3 m ρ c, W8_v1 m ρ c, W8_v28 m ρ c, W8_v59 m ρ c]
  rfl

theorem W9_v72 : W9 m ρ c (Proc.devRef .tc main_v72) = shapeCast S1x10 (m ((c : Thread nD τ).loc main_arg7)) Facts₀.shapeCasts_S10_S1x10 := by
  show StableHlo.after hostOps5 (W8 m ρ c) (Proc.devRef .tc main_v72) = _
  after_results_simp
  rw [W8_arg7 m ρ c]
  rfl

theorem W9_v12 : W9 m ρ c (Proc.devRef .tc main_v12) = selfCol (m ((c : Thread nD τ).loc main_arg1)) :=
  (by host_keeps hostOps5 : W9 m ρ c (Proc.devRef .tc main_v12) = W8 m ρ c (Proc.devRef .tc main_v12)).trans (W8_v12 m ρ c)

theorem W9_v59 : W9 m ρ c (Proc.devRef .tc main_v59) = (hidden10 (layer128 (m ((c : Thread nD τ).loc main_arg1)) (layer128 (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6))) :=
  (by host_keeps hostOps5 : W9 m ρ c (Proc.devRef .tc main_v59) = W8 m ρ c (Proc.devRef .tc main_v59)).trans (W8_v59 m ρ c)

theorem W10_v73 : W10 m ρ c (Proc.devRef .tc main_v73) = (layer10 (m ((c : Thread nD τ).loc main_arg1)) (layer128 (m ((c : Thread nD τ).loc main_arg1)) (layer128 (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6)) (m ((c : Thread nD τ).loc main_arg7))) :=
  (W10_arr m ρ c 4).trans ((Combine5.result (V9 m ρ) c).trans (by
    show combine (W9 m ρ c (Proc.devRef .tc main_v71)) (W9 m ρ c (Proc.devRef .tc main_v59)) (W9 m ρ c (Proc.devRef .tc main_v12)) (W9 m ρ c (Proc.devRef .tc main_v72)) = _
    rw [W9_v71 m ρ c, W9_v59 m ρ c, W9_v12 m ρ c, W9_v72 m ρ c]; rfl))

/-! ## Region 6: the log-softmax -/

theorem W11_v74 : W11 m ρ c (Proc.devRef .tc main_v74) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W11_arr m ρ c 1).trans ((LogSoftmax6.result (V10 m ρ) c).trans (by
    show logSoftmax (N := 50000) (K := 10) (W10 m ρ c (Proc.devRef .tc main_v73)) = _
    rw [W10_v73 m ρ c]; rfl))

/-! ## The run, with the result named -/

/-- Every weakly fair execution of the idealized kernel terminates, nothing faulting, with the result buffer holding the
    network applied to the argument arrays, and the arguments as launched. -/
theorem run : θ_run defs (onTc (τ := τ) (main (F := Ideal))) ⟨m, fun _ => 0, ρ⟩ (fun r => ∀ c : Dev nD,
      r.2.mem ((c.tc : Thread nD τ).loc main_v74) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W11_v74 m ρ c), (h c).2⟩) (run_result m ρ)

end Cert.KernelIdeal.Whole

end
-- ==== Proof.GcnRefHost.lean ====
/-
  The graph side of the network as the reference's host operations compose it: the same quantities as the kernel's
  host operations compute (sources, targets, inverse square roots of the degrees, edge weights, the weighted
  aggregation of neighbours' rows), spelt over the reference program's own dimension records.
-/
import proofs.«128258_j65111704207441_1_alg».proof.Proof.Gen.ReferenceIdeal
import Idealize.ShloMosaic.PureOps.Ideal

noncomputable section

namespace Cert.Gcn.RHost

open Cert.ReferenceIdeal Cert.ReferenceIdeal.Facts₀ Idealize.ShloMosaic

abbrev Edges := IVec S2x800000 32
abbrev EdgeRow := IVec S800000 32
abbrev EdgeCol := IVec S800000x1 32

/-- The edges' sources. -/
def srcRow (e : Edges) : EdgeRow :=
  shapeCast _ (extractStridedSlice S1x800000 ![0, 0] e slices_S2x800000_S1x800000_0_0) shapeCasts_S1x800000_S800000

/-- The edges' targets. -/
def dstRow (e : Edges) : EdgeRow :=
  shapeCast _ (extractStridedSlice S1x800000 ![1, 0] e slices_S2x800000_S1x800000_1_0) shapeCasts_S1x800000_S800000

/-- Node numbers kept as a one-column array of start indices. -/
def asCol (v : EdgeRow) : EdgeCol := broadcastInDim S800000x1 ![0] bcast_S800000_S800000x1_0 v

/-- Node numbers with the negative ones moved up by 50000, as a one-column array of start indices. -/
def wrapCol (v : EdgeRow) : EdgeCol :=
  asCol (select (cmpi .slt v (broadcastInDim S800000 ![] bcast_S_S800000 (constantI S_ 32 0#32)))
    (addi v (broadcastInDim S800000 ![] bcast_S_S800000 (constantI S_ 32 50000#32))) v)

/-- The inverse square root of each node's degree (one plus the number of edges ending at it). -/
def dis (e : Edges) : FVec Ideal S50000 .f32 :=
  Host.rsqrt (addf (Host.scatterAdd scatter_S50000_S800000x1_S800000_n_0_0_1
      (broadcastInDim S50000 ![] bcast_S_S50000 (constant (F := Ideal) S_ .f32 0x00000000#32)) (asCol (dstRow e))
      (broadcastInDim S800000 ![] bcast_S_S800000 (constant (F := Ideal) S_ .f32 0x3F800000#32)))
    (broadcastInDim S50000 ![] bcast_S_S50000 (constant (F := Ideal) S_ .f32 0x3F800000#32)))

/-- Each edge's weight: dis at its source times dis at its target. -/
def norm (e : Edges) : FVec Ideal S800000 .f32 :=
  mulf (Host.gather gather_S50000_S800000x1_S800000_n_0_n_n_0_1_1 (dis e) (wrapCol (srcRow e)))
    (Host.gather gather_S50000_S800000x1_S800000_n_0_n_n_0_1_1 (dis e) (wrapCol (dstRow e)))

/-- The neighbours' rows of a [50000, 128] array, weighted by a one-column array of edge weights and summed at the targets. -/
def agg128 (e : Edges) (w : FVec Ideal S800000x1 .f32) (h : FVec Ideal S50000x128 .f32) :
    FVec Ideal S50000x128 .f32 :=
  Host.scatterAdd scatter_S50000x128_S800000x1_S800000x128_1_0_0_1
    (broadcastInDim S50000x128 ![] bcast_S_S50000x128 (constant (F := Ideal) S_ .f32 0x00000000#32)) (asCol (dstRow e))
    (mulf (Host.gather gather_S50000x128_S800000x1_S800000x128_1_0_n_n_0_1_1128 h (wrapCol (srcRow e)))
      (broadcastInDim S800000x128 ![0, 1] bcast_S800000x1_S800000x128_0_1 w))

/-- The same of a [50000, 10] array. -/
def agg10 (e : Edges) (w : FVec Ideal S800000x1 .f32) (h : FVec Ideal S50000x10 .f32) :
    FVec Ideal S50000x10 .f32 :=
  Host.scatterAdd scatter_S50000x10_S800000x1_S800000x10_1_0_0_1
    (broadcastInDim S50000x10 ![] bcast_S_S50000x10 (constant (F := Ideal) S_ .f32 0x00000000#32)) (asCol (dstRow e))
    (mulf (Host.gather gather_S50000x10_S800000x1_S800000x10_1_0_n_n_0_1_110 h (wrapCol (srcRow e)))
      (broadcastInDim S800000x10 ![0, 1] bcast_S800000x1_S800000x10_0_1 w))

end Cert.Gcn.RHost

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.LibGcnHostRows.lean ====
/-
  The host's spelling of a layer's combination and of the log-softmax, against the entry-by-entry forms — general in
  the number of rows N and of columns K.

  The host keeps a vector as a one-column (or one-row) array by a broadcast along one dimension, where a reshape
  gives the same array (`column_eq`). It adds the self-loop term and the bias by repeating the column along the rows
  and the row down the columns, and takes the maximum with a zero repeated everywhere: entry by entry that is
  max ((agg + h · d) + b) 0 (`host_combine_eq`). Its log-softmax (row maxima reduced from −∞ and taken once more
  against −∞, shifted entries, exponentials summed from zero, the logarithm subtracted) is the row-wise log-softmax
  (`host_logSoftmax_eq`). No entry needs to be finite.
-/
import proofs.«128258_j65111704207441_1_alg».proof.Proof.LibGcnRows
import proofs.«128258_j65111704207441_1_alg».proof.Proof.LibHostColumn
import proofs.«128258_j65111704207441_1_alg».proof.Proof.LibColumnLayout
import proofs.«128258_j65111704207441_1_alg».proof.Proof.LibHostRowReduce
import Idealize.ShloMosaic.Lib.ValueLayout

noncomputable section

namespace Cert.Gcn

open Idealize.ShloMosaic Idealize.ShloMosaic.ValueIdx

/-- A vector kept as a one-column array by the host's broadcast along dimension 0 is its reshape to that column. -/
theorem column_eq {α : Type} {N : Nat} (v : (⟨1, ![N]⟩ : Shape).Idx → α)
    (b0 : (⟨1, ![N]⟩ : Shape).BroadcastsInDim ⟨2, ![N, 1]⟩ ![0]) (hc : (⟨1, ![N]⟩ : Shape).ShapeCasts ⟨2, ![N, 1]⟩) :
    broadcastInDim ⟨2, ![N, 1]⟩ ![0] b0 v = shapeCast ⟨2, ![N, 1]⟩ v hc := by
  funext i
  obtain ⟨p, u, rfl⟩ : ∃ (p : Fin N) (u : Fin 1), i = ix2 p u := ⟨i 0, i 1, eq_ix2 i⟩
  have hu : u = 0 := Subsingleton.elim _ _
  subst hu
  rw [ColumnLayout.shapeCast_a_a1_apply]
  exact Cert.HostRows.column_keep v b0 p

/-- The host's combination of a layer — the column of self-loop weights repeated along the rows, the bias row repeated
    down the rows, the maximum with a zero repeated everywhere — is the entry-by-entry combination, the column and the
    row being the reshapes of the two vectors. -/
theorem host_combine_eq {N K : Nat} (agg h : FVec Ideal ⟨2, ![N, K]⟩ .f32) (d : FVec Ideal ⟨1, ![N]⟩ .f32) (b : FVec Ideal ⟨1, ![K]⟩ .f32)
    (b0 : (⟨1, ![N]⟩ : Shape).BroadcastsInDim ⟨2, ![N, 1]⟩ ![0]) (b01 : (⟨2, ![N, 1]⟩ : Shape).BroadcastsInDim ⟨2, ![N, K]⟩ ![0, 1])
    (b1 : (⟨1, ![K]⟩ : Shape).BroadcastsInDim ⟨2, ![1, K]⟩ ![1]) (b11 : (⟨2, ![1, K]⟩ : Shape).BroadcastsInDim ⟨2, ![N, K]⟩ ![0, 1])
    (bz : (⟨0, ![]⟩ : Shape).BroadcastsInDim ⟨2, ![N, K]⟩ ![])
    (hc : (⟨1, ![N]⟩ : Shape).ShapeCasts ⟨2, ![N, 1]⟩) (hr : (⟨1, ![K]⟩ : Shape).ShapeCasts ⟨2, ![1, K]⟩) :
    maximumf (addf (addf agg (mulf h (broadcastInDim ⟨2, ![N, K]⟩ ![0, 1] b01 (broadcastInDim ⟨2, ![N, 1]⟩ ![0] b0 d))))
        (broadcastInDim ⟨2, ![N, K]⟩ ![0, 1] b11 (broadcastInDim ⟨2, ![1, K]⟩ ![1] b1 b)))
      (broadcastInDim ⟨2, ![N, K]⟩ ![] bz (constant (F := Ideal) ⟨0, ![]⟩ .f32 0x00000000#32))
    = combine agg h (shapeCast ⟨2, ![N, 1]⟩ d hc) (shapeCast ⟨2, ![1, K]⟩ b hr) := by
  funext i
  obtain ⟨p, k, rfl⟩ : ∃ (p : Fin N) (k : Fin K), i = ix2 p k := ⟨i 0, i 1, eq_ix2 i⟩
  rw [combine_apply, ColumnLayout.shapeCast_a_a1_apply, shapeCast_a_1a_apply]
  show max ((agg (ix2 p k) + h (ix2 p k) * broadcastInDim ⟨2, ![N, K]⟩ ![0, 1] b01 (broadcastInDim ⟨2, ![N, 1]⟩ ![0] b0 d) (ix2 p k))
      + broadcastInDim ⟨2, ![N, K]⟩ ![0, 1] b11 (broadcastInDim ⟨2, ![1, K]⟩ ![1] b1 b) (ix2 p k)) (Ideal.ofBits .f32 0x00000000#32) = _
  rw [HostColumn.column_apply, HostColumn.row_apply]

/-- The host's log-softmax along the rows is the row-wise log-softmax. -/
theorem host_logSoftmax_eq {N K : Nat} (h' : (⟨2, ![N, K]⟩ : Shape).ReducesTo [1] (⟨1, ![N]⟩ : Shape))
    (h : (⟨2, ![N, K]⟩ : Shape).Reduces [1] (⟨1, ![N]⟩ : Shape)) (hu : 0 < (⟨0, ![]⟩ : Shape).numel)
    (b0 : (⟨0, ![]⟩ : Shape).BroadcastsInDim (⟨1, ![N]⟩ : Shape) ![]) (b1 : (⟨1, ![N]⟩ : Shape).BroadcastsInDim (⟨2, ![N, 1]⟩ : Shape) ![0])
    (b2 : (⟨2, ![N, 1]⟩ : Shape).BroadcastsInDim (⟨2, ![N, K]⟩ : Shape) ![0, 1]) (z : FVec Ideal (⟨2, ![N, K]⟩ : Shape) .f32) :
    Cert.HostRows.logSoftmax h' hu b0 b1 b2 0xFF800000#32 0x00000000#32 z = logSoftmax z := by
  funext i
  obtain ⟨p, q, rfl⟩ : ∃ (p : Fin N) (q : Fin K), i = ix2 p q := ⟨i 0, i 1, eq_ix2 i⟩
  rw [Cert.HostRows.logSoftmax_apply h' h hu b0 b1 b2 0xFF800000#32 0x00000000#32 Ideal.ofBits_zero_f32 z p q, logSoftmax_apply]
  rfl

end Cert.Gcn

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.RefValue.lean ====
/-
  The reference's result, read from the fold of its host operations a layer at a time.

  The reference is a straight line of 198 host operations: three layers of 61 operations each (the product of the node
  features with the weights; the degrees, their inverse square roots and the edge weights recomputed from the edge list;
  the gather of source rows, their scaling and the scatter-add at the targets; the self-loop term, the bias and the
  maximum with zero) and the 15 operations of the log-softmax. What a line of operations leaves is what its last part
  leaves from what its first part leaves, so each layer is read by itself, from an arbitrary starting valuation, and
  the four readings are chained. Each layer as the host spells it is the layer of the network (the host's dot_general
  is the entrywise product; a broadcast of a vector to a one-column array is its reshape; the repeated column, the
  repeated row and the repeated zero combine entry by entry), and the host's log-softmax is the row-wise log-softmax.
-/
import proofs.«128258_j65111704207441_1_alg».proof.Proof.RefRun
import proofs.«128258_j65111704207441_1_alg».proof.Proof.GcnNet
import proofs.«128258_j65111704207441_1_alg».proof.Proof.GcnRefHost
import proofs.«128258_j65111704207441_1_alg».proof.Proof.LibGcnHostRows
import proofs.«128258_j65111704207441_1_alg».proof.Proof.LibRowsCols
import proofs.«128258_j65111704207441_1_alg».proof.Proof.LibHostStretches
import Idealize.ShloMosaic.Lib.StableHlo.Run

set_option maxRecDepth 16384

noncomputable section

namespace Cert.ReferenceIdeal.RefValue

open Cert.ReferenceIdeal Cert.ReferenceIdeal.Gen Cert.ReferenceIdeal.Fold
open Idealize.ShloMosaic Idealize.ShloMosaic.TcCoe Idealize.SL.Sem Idealize.ShloMosaic.StableHlo

/-! ## A layer and the log-softmax as the host spells them -/

/-- A layer with 128 output features before its maximum with zero, in the host's operations. -/
def hostPre128 (e : IVec S2x800000 32) (x : FVec Ideal S50000x128 .f32) (w : FVec Ideal S128x128 .f32) (b : FVec Ideal S128 .f32) :
    FVec Ideal S50000x128 .f32 :=
  addf (addf
      (Cert.Gcn.RHost.agg128 e (broadcastInDim S800000x1 ![0] bcast_S800000_S800000x1_0 (Cert.Gcn.RHost.norm e))
        (Host.dotGeneral dot_S50000x128_S128x128_S50000x128_1_0_0_1_n_n none x w))
      (mulf (Host.dotGeneral dot_S50000x128_S128x128_S50000x128_1_0_0_1_n_n none x w)
        (broadcastInDim S50000x128 ![0, 1] bcast_S50000x1_S50000x128_0_1
          (broadcastInDim S50000x1 ![0] bcast_S50000_S50000x1_0 (mulf (Cert.Gcn.RHost.dis e) (Cert.Gcn.RHost.dis e))))))
    (broadcastInDim S50000x128 ![0, 1] bcast_S1x128_S50000x128_0_1 (broadcastInDim S1x128 ![1] bcast_S128_S1x128_1 b))

/-- The maximum with zero of a [50000, 128] array, in the host's operations. -/
def hostRelu128 (z : FVec Ideal S50000x128 .f32) : FVec Ideal S50000x128 .f32 :=
  maximumf z (broadcastInDim S50000x128 ![] bcast_S_S50000x128 (constant (F := Ideal) S_ .f32 0x00000000#32))

/-- A layer with 10 output features before its maximum with zero, in the host's operations. -/
def hostPre10 (e : IVec S2x800000 32) (x : FVec Ideal S50000x128 .f32) (w : FVec Ideal S128x10 .f32) (b : FVec Ideal S10 .f32) :
    FVec Ideal S50000x10 .f32 :=
  addf (addf
      (Cert.Gcn.RHost.agg10 e (broadcastInDim S800000x1 ![0] bcast_S800000_S800000x1_0 (Cert.Gcn.RHost.norm e))
        (Host.dotGeneral dot_S50000x128_S128x10_S50000x10_1_0_0_1_n_n none x w))
      (mulf (Host.dotGeneral dot_S50000x128_S128x10_S50000x10_1_0_0_1_n_n none x w)
        (broadcastInDim S50000x10 ![0, 1] bcast_S50000x1_S50000x10_0_1
          (broadcastInDim S50000x1 ![0] bcast_S50000_S50000x1_0 (mulf (Cert.Gcn.RHost.dis e) (Cert.Gcn.RHost.dis e))))))
    (broadcastInDim S50000x10 ![0, 1] bcast_S1x10_S50000x10_0_1 (broadcastInDim S1x10 ![1] bcast_S10_S1x10_1 b))

/-- The maximum with zero of a [50000, 10] array, in the host's operations. -/
def hostRelu10 (z : FVec Ideal S50000x10 .f32) : FVec Ideal S50000x10 .f32 :=
  maximumf z (broadcastInDim S50000x10 ![] bcast_S_S50000x10 (constant (F := Ideal) S_ .f32 0x00000000#32))

/-- The log-softmax along the rows of a [50000, 10] array, in the host's operations. -/
def hostLogSoftmax (z : FVec Ideal S50000x10 .f32) : FVec Ideal S50000x10 .f32 :=
  Cert.HostRows.logSoftmax (m := 50000) (n := 10) reducesTo_S50000x10_S50000_d1 h_S_ bcast_S_S50000 bcast_S50000_S50000x1_0
    bcast_S50000x1_S50000x10_0_1 0xFF800000#32 0x00000000#32 z

/-! ## The graph side over the reference's records is the graph side over the kernel's -/

theorem srcRow_eq (e : IVec S2x800000 32) : Cert.Gcn.RHost.srcRow e = Cert.Gcn.Host.srcRow e := rfl
theorem dstRow_eq (e : IVec S2x800000 32) : Cert.Gcn.RHost.dstRow e = Cert.Gcn.Host.dstRow e := rfl
theorem asCol_eq (v : IVec S800000 32) : Cert.Gcn.RHost.asCol v = Cert.Gcn.Host.asCol v := rfl
theorem wrapCol_eq (v : IVec S800000 32) : Cert.Gcn.RHost.wrapCol v = Cert.Gcn.Host.wrapCol v := rfl
theorem dis_eq (e : IVec S2x800000 32) : Cert.Gcn.RHost.dis e = Cert.Gcn.Host.dis e := rfl
theorem norm_eq (e : IVec S2x800000 32) : Cert.Gcn.RHost.norm e = Cert.Gcn.Host.norm e := by
  unfold Cert.Gcn.RHost.norm Cert.Gcn.Host.norm
  rw [dis_eq, srcRow_eq, dstRow_eq, wrapCol_eq, wrapCol_eq]
  rfl
theorem agg128_eq (e : IVec S2x800000 32) (w : FVec Ideal S800000x1 .f32) (h : FVec Ideal S50000x128 .f32) :
    Cert.Gcn.RHost.agg128 e w h = Cert.Gcn.Host.agg128 e w h := by
  unfold Cert.Gcn.RHost.agg128 Cert.Gcn.Host.agg128
  rw [srcRow_eq, dstRow_eq, wrapCol_eq, asCol_eq]
  rfl
theorem agg10_eq (e : IVec S2x800000 32) (w : FVec Ideal S800000x1 .f32) (h : FVec Ideal S50000x10 .f32) :
    Cert.Gcn.RHost.agg10 e w h = Cert.Gcn.Host.agg10 e w h := by
  unfold Cert.Gcn.RHost.agg10 Cert.Gcn.Host.agg10
  rw [srcRow_eq, dstRow_eq, wrapCol_eq, asCol_eq]
  rfl

/-! ## The host's spelling is the network's -/

/-- The printed contraction records contract the operand's columns with the weights' rows. -/
theorem rowsCols128 : Cert.Dense.RowsCols (R := 50000) (K := 128) (N := 128) dot_S50000x128_S128x128_S50000x128_1_0_0_1_n_n :=
  ⟨rfl, rfl, fun _ _ => rfl, fun _ _ => rfl, fun _ _ => rfl, fun _ _ => rfl⟩
theorem rowsCols10 : Cert.Dense.RowsCols (R := 50000) (K := 128) (N := 10) dot_S50000x128_S128x10_S50000x10_1_0_0_1_n_n :=
  ⟨rfl, rfl, fun _ _ => rfl, fun _ _ => rfl, fun _ _ => rfl, fun _ _ => rfl⟩

/-- The host's layer is the network's layer. -/
theorem hostLayer128_eq (e : IVec S2x800000 32) (x : FVec Ideal S50000x128 .f32) (w : FVec Ideal S128x128 .f32) (b : FVec Ideal S128 .f32) :
    hostRelu128 (hostPre128 e x w b) = Cert.Gcn.Net.layer128 e x w b := by
  unfold hostRelu128 hostPre128 Cert.Gcn.Net.layer128 Cert.Gcn.Net.hidden128 Cert.Gcn.Net.normCol Cert.Gcn.Net.selfCol
  rw [agg128_eq, norm_eq, dis_eq, Cert.Dense.dotGeneral_eq rowsCols128 none x w,
    Cert.Gcn.column_eq (N := 800000) (Cert.Gcn.Host.norm e) bcast_S800000_S800000x1_0 Cert.KernelIdeal.Facts₀.shapeCasts_S800000_S800000x1]
  exact Cert.Gcn.host_combine_eq (N := 50000) (K := 128) _ _ _ b bcast_S50000_S50000x1_0 bcast_S50000x1_S50000x128_0_1 bcast_S128_S1x128_1
    bcast_S1x128_S50000x128_0_1 bcast_S_S50000x128 Cert.KernelIdeal.Facts₀.shapeCasts_S50000_S50000x1 Cert.KernelIdeal.Facts₀.shapeCasts_S128_S1x128

theorem hostLayer10_eq (e : IVec S2x800000 32) (x : FVec Ideal S50000x128 .f32) (w : FVec Ideal S128x10 .f32) (b : FVec Ideal S10 .f32) :
    hostRelu10 (hostPre10 e x w b) = Cert.Gcn.Net.layer10 e x w b := by
  unfold hostRelu10 hostPre10 Cert.Gcn.Net.layer10 Cert.Gcn.Net.hidden10 Cert.Gcn.Net.normCol Cert.Gcn.Net.selfCol
  rw [agg10_eq, norm_eq, dis_eq, Cert.Dense.dotGeneral_eq rowsCols10 none x w,
    Cert.Gcn.column_eq (N := 800000) (Cert.Gcn.Host.norm e) bcast_S800000_S800000x1_0 Cert.KernelIdeal.Facts₀.shapeCasts_S800000_S800000x1]
  exact Cert.Gcn.host_combine_eq (N := 50000) (K := 10) _ _ _ b bcast_S50000_S50000x1_0 bcast_S50000x1_S50000x10_0_1 bcast_S10_S1x10_1
    bcast_S1x10_S50000x10_0_1 bcast_S_S50000x10 Cert.KernelIdeal.Facts₀.shapeCasts_S50000_S50000x1 Cert.KernelIdeal.Facts₀.shapeCasts_S10_S1x10

/-- The host's log-softmax is the row-wise log-softmax. -/
theorem hostLogSoftmax_eq (z : FVec Ideal S50000x10 .f32) : hostLogSoftmax z = Cert.Gcn.logSoftmax (N := 50000) (K := 10) z :=
  Cert.Gcn.host_logSoftmax_eq (N := 50000) (K := 10) reducesTo_S50000x10_S50000_d1 (by decide) h_S_ bcast_S_S50000 bcast_S50000_S50000x1_0
    bcast_S50000x1_S50000x10_0_1 z

/-! ## The line of operations, a stretch at a time -/

/-- A prefix of a line of operations run as a shorter prefix and then the operations between the two. -/
theorem after_take_split (l : List (HloOp τ sig (Elt Ideal))) (a b : Nat) (hab : a ≤ b) (V : Valuation τ sig (Elt Ideal)) :
    after (l.take b) V = after ((l.take b).drop a) (after (l.take a) V) := by
  rw [Cert.HostLine.after_split a (l.take b) V, List.take_take, min_eq_left hab]

variable (V : Valuation τ sig (Elt Ideal))

/-- Operations 0 … 57: the first layer before its maximum with zero. -/
theorem pre1_reads : after ((ops (F := Ideal)).take 58) V (Proc.devRef .tc main_v47)
    = hostPre128 (V (Proc.devRef .tc main_arg1)) (V (Proc.devRef .tc main_arg0)) (V (Proc.devRef .tc main_arg2)) (V (Proc.devRef .tc main_arg3)) := by
  simp only [ops, List.take_succ_cons, List.take_zero, List.drop_succ_cons, List.drop_zero]
  after_results_simp
  rfl

/-- Operations 58 … 60: its maximum with zero. -/
theorem relu1_reads : after (((ops (F := Ideal)).take 61).drop 58) V (Proc.devRef .tc main_v48) = hostRelu128 (V (Proc.devRef .tc main_v47)) := by
  simp only [ops, List.take_succ_cons, List.take_zero, List.drop_succ_cons, List.drop_zero]
  after_results_simp
  rfl

/-- Operations 61 … 118: the second layer before its maximum with zero. -/
theorem pre2_reads : after (((ops (F := Ideal)).take 119).drop 61) V (Proc.devRef .tc main_v96)
    = hostPre128 (V (Proc.devRef .tc main_arg1)) (V (Proc.devRef .tc main_v48)) (V (Proc.devRef .tc main_arg4)) (V (Proc.devRef .tc main_arg5)) := by
  simp only [ops, List.take_succ_cons, List.take_zero, List.drop_succ_cons, List.drop_zero]
  after_results_simp
  rfl

/-- Operations 119 … 121: its maximum with zero. -/
theorem relu2_reads : after (((ops (F := Ideal)).take 122).drop 119) V (Proc.devRef .tc main_v97) = hostRelu128 (V (Proc.devRef .tc main_v96)) := by
  simp only [ops, List.take_succ_cons, List.take_zero, List.drop_succ_cons, List.drop_zero]
  after_results_simp
  rfl

/-- Operations 122 … 179: the third layer before its maximum with zero. -/
theorem pre3_reads : after (((ops (F := Ideal)).take 180).drop 122) V (Proc.devRef .tc main_v145)
    = hostPre10 (V (Proc.devRef .tc main_arg1)) (V (Proc.devRef .tc main_v97)) (V (Proc.devRef .tc main_arg6)) (V (Proc.devRef .tc main_arg7)) := by
  simp only [ops, List.take_succ_cons, List.take_zero, List.drop_succ_cons, List.drop_zero]
  after_results_simp
  rfl

/-- Operations 180 … 182: its maximum with zero. -/
theorem relu3_reads : after (((ops (F := Ideal)).take 183).drop 180) V (Proc.devRef .tc main_v146) = hostRelu10 (V (Proc.devRef .tc main_v145)) := by
  simp only [ops, List.take_succ_cons, List.take_zero, List.drop_succ_cons, List.drop_zero]
  after_results_simp
  rfl

/-- Operations 183 … 197: the log-softmax. -/
theorem logSoftmax_reads : after ((ops (F := Ideal)).drop 183) V (Proc.devRef .tc main_v147) = hostLogSoftmax (V (Proc.devRef .tc main_v146)) := by
  simp only [ops, List.take_succ_cons, List.take_zero, List.drop_succ_cons, List.drop_zero]
  after_results_simp
  simp only [Cert.HostLine.ofBuf_toBuf]
  rfl

/-! ## The arguments pass through the layers unwritten -/

theorem keep61_arg1 : after ((ops (F := Ideal)).take 61) V (Proc.devRef .tc main_arg1) = (V (Proc.devRef .tc main_arg1)) := by
  simp only [ops, List.take_succ_cons, List.take_zero, List.drop_succ_cons, List.drop_zero]
  after_results_simp
theorem keep61_arg4 : after ((ops (F := Ideal)).take 61) V (Proc.devRef .tc main_arg4) = (V (Proc.devRef .tc main_arg4)) := by
  simp only [ops, List.take_succ_cons, List.take_zero, List.drop_succ_cons, List.drop_zero]
  after_results_simp
theorem keep61_arg5 : after ((ops (F := Ideal)).take 61) V (Proc.devRef .tc main_arg5) = (V (Proc.devRef .tc main_arg5)) := by
  simp only [ops, List.take_succ_cons, List.take_zero, List.drop_succ_cons, List.drop_zero]
  after_results_simp
theorem keep122_arg1 : after ((ops (F := Ideal)).take 122) V (Proc.devRef .tc main_arg1) = (V (Proc.devRef .tc main_arg1)) := by
  simp only [ops, List.take_succ_cons, List.take_zero, List.drop_succ_cons, List.drop_zero]
  after_results_simp
theorem keep122_arg6 : after ((ops (F := Ideal)).take 122) V (Proc.devRef .tc main_arg6) = (V (Proc.devRef .tc main_arg6)) := by
  simp only [ops, List.take_succ_cons, List.take_zero, List.drop_succ_cons, List.drop_zero]
  after_results_simp
theorem keep122_arg7 : after ((ops (F := Ideal)).take 122) V (Proc.devRef .tc main_arg7) = (V (Proc.devRef .tc main_arg7)) := by
  simp only [ops, List.take_succ_cons, List.take_zero, List.drop_succ_cons, List.drop_zero]
  after_results_simp

/-! ## No operation writes an argument -/

set_option maxHeartbeats 8000000 in
theorem keep_arg0 : after (ops (F := Ideal)) V (Proc.devRef .tc main_arg0) = (V (Proc.devRef .tc main_arg0)) := by
  after_results_simp
set_option maxHeartbeats 8000000 in
theorem keep_arg1 : after (ops (F := Ideal)) V (Proc.devRef .tc main_arg1) = (V (Proc.devRef .tc main_arg1)) := by
  after_results_simp
set_option maxHeartbeats 8000000 in
theorem keep_arg2 : after (ops (F := Ideal)) V (Proc.devRef .tc main_arg2) = (V (Proc.devRef .tc main_arg2)) := by
  after_results_simp
set_option maxHeartbeats 8000000 in
theorem keep_arg3 : after (ops (F := Ideal)) V (Proc.devRef .tc main_arg3) = (V (Proc.devRef .tc main_arg3)) := by
  after_results_simp
set_option maxHeartbeats 8000000 in
theorem keep_arg4 : after (ops (F := Ideal)) V (Proc.devRef .tc main_arg4) = (V (Proc.devRef .tc main_arg4)) := by
  after_results_simp
set_option maxHeartbeats 8000000 in
theorem keep_arg5 : after (ops (F := Ideal)) V (Proc.devRef .tc main_arg5) = (V (Proc.devRef .tc main_arg5)) := by
  after_results_simp
set_option maxHeartbeats 8000000 in
theorem keep_arg6 : after (ops (F := Ideal)) V (Proc.devRef .tc main_arg6) = (V (Proc.devRef .tc main_arg6)) := by
  after_results_simp
set_option maxHeartbeats 8000000 in
theorem keep_arg7 : after (ops (F := Ideal)) V (Proc.devRef .tc main_arg7) = (V (Proc.devRef .tc main_arg7)) := by
  after_results_simp

/-! ## The whole line -/

/-- The whole line of operations leaves, in the result buffer, the network applied to the arguments. -/
theorem fold_reads : after (ops (F := Ideal)) V (Proc.devRef .tc main_v147)
    = Cert.Gcn.Net.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [Cert.HostLine.after_split 183 (ops (F := Ideal)) V, logSoftmax_reads]
  rw [after_take_split (ops (F := Ideal)) 180 183 (by decide) V, relu3_reads]
  rw [after_take_split (ops (F := Ideal)) 122 180 (by decide) V, pre3_reads]
  rw [keep122_arg1, keep122_arg6, keep122_arg7]
  rw [after_take_split (ops (F := Ideal)) 119 122 (by decide) V, relu2_reads]
  rw [after_take_split (ops (F := Ideal)) 61 119 (by decide) V, pre2_reads]
  rw [keep61_arg1, keep61_arg4, keep61_arg5]
  rw [after_take_split (ops (F := Ideal)) 58 61 (by decide) V, relu1_reads, pre1_reads]
  rw [hostLayer128_eq, hostLayer128_eq, hostLayer10_eq, hostLogSoftmax_eq]
  rfl

/-- Every weakly fair execution of the reference terminates, nothing faulting, with the result buffer holding the
    network applied to the argument arrays, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v147) = Cert.Gcn.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v147).trans (fold_reads (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c))⟩)
    (run_fold m ρ)

end Cert.ReferenceIdeal.RefValue

end
-- ==== Proof.lean ====
/-
  A three-layer graph-convolution network, as a pipelined kernel and as a plain host program: the two idealized
  programs compute the same [50000, 10] array on the extended reals.

  The kernel runs seven pipelined regions — three products of the node features with a weight matrix, three
  combinations max ((agg + h · dis²) + b) 0 of the aggregated rows, the self-loop term and the bias, and a row-wise
  log-softmax — among stretches of host operations that compute the graph side (degrees, their inverse square roots,
  the edge weights) and the aggregation of neighbours' rows by gather and scatter-add. The reference computes all of
  it on the host. Read on the extended reals, a region's ten row blocks tile its result array with the same function
  of the operand arrays' rows as the host's whole-array operation computes: a product of rows is the rows of the
  product, and the combination and the log-softmax act on each row by itself. The gather and the scatter-add are the
  same host operations in both programs, applied to equal arrays, so they are never opened. Every sum keeps its
  grouping, so no entry needs to be finite and the precondition is not used.

  The frames of the two kernel programs are the generated frame certificates; the reference's frame is its run with the
  result dropped; the idealization rewrote nothing.
-/
import proofs.«128258_j65111704207441_1_alg».proof.Defs
import proofs.«128258_j65111704207441_1_alg».proof.Proof.Gen.Kernel
import proofs.«128258_j65111704207441_1_alg».proof.Proof.Gen.Kernel.Frame
import proofs.«128258_j65111704207441_1_alg».proof.Proof.Gen.KernelIdeal
import proofs.«128258_j65111704207441_1_alg».proof.Proof.Gen.KernelIdeal.Frame
import proofs.«128258_j65111704207441_1_alg».proof.Proof.Gen.ReferenceIdeal
import proofs.«128258_j65111704207441_1_alg».proof.Proof.Gen.Pre_finite_inputs
import proofs.«128258_j65111704207441_1_alg».proof.Proof.KernelValue
import proofs.«128258_j65111704207441_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- Both runs end with the result buffer holding the network applied to the argument arrays, and the argument arrays
    agree. -/
theorem algebraic : Cert.algebraic_KernelIdeal_ReferenceIdeal := by
  intro m ρ m' ρ' _ hagree
  refine ⟨fun c => Cert.Gcn.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
